-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x128 : Shape := ⟨3, ![4096, 32, 128]⟩
abbrev S4096x32x32 : Shape := ⟨3, ![4096, 32, 32]⟩
abbrev S128x16 : Shape := ⟨2, ![128, 16]⟩
abbrev S16 : Shape := ⟨1, ![16]⟩
abbrev S_ : Shape := ⟨0, ![]⟩
abbrev S32x32 : Shape := ⟨2, ![32, 32]⟩
abbrev S1x32x32 : Shape := ⟨3, ![1, 32, 32]⟩
abbrev S4096x32 : Shape := ⟨2, ![4096, 32]⟩

class Facts : Prop where
  bcast_S_S4096x32x128 : S_.BroadcastsInDim S4096x32x128 (![] : Fin 0 → Fin S4096x32x128.rank)
  reducesTo_S4096x32x128_S_d0_1_2 : S4096x32x128.ReducesTo [0, 1, 2] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S4096x32x32_0_1_2 : S1x32x32.BroadcastsInDim S4096x32x32 (![0, 1, 2] : Fin 3 → Fin S4096x32x32.rank)
  reducesTo_S4096x32x32_S4096x32_d2 : S4096x32x32.ReducesTo [2] S4096x32
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_v13 : IVec S_ 1) (main_v14 : FVec F S4096x32x32 .f32) (main_v15 : IVec S32x32 32) (main_v16 : IVec S32x32 32) (main_c_4 : IVec S_ 32) : IVec S_ 1 :=
  let main_v17 : IVec S32x32 32 := broadcastInDim S32x32 ![] bcast_S_S32x32 main_c_4
  let main_v18 : IVec S32x32 32 := addi main_v15 main_v17
  let main_v19 : IVec S32x32 1 := cmpi .eq main_v18 main_v16
  let main_v20 : FVec F S32x32 .f32 := uitofp .f32 main_v19
  let main_v21 : FVec F S1x32x32 .f32 := broadcastInDim S1x32x32 ![1, 2] bcast_S32x32_S1x32x32_1_2 main_v20
  let main_v22 : FVec F S4096x32x32 .f32 := broadcastInDim S4096x32x32 ![0, 1, 2] bcast_S1x32x32_S4096x32x32_0_1_2 main_v21
  let main_v23 : FVec F S4096x32x32 .f32 := addf main_v14 main_v22
  let main_cst_5 : FVec F S_ .f32 := constant S_ .f32 0x00000000#32
  let main_v24 : FVec F S4096x32 .f32 := (fun x v => Host.reduceAdd x v reducesTo_S4096x32x32_S4096x32_d2 h_S_) main_v23 main_cst_5
  let main_cst_6 : FVec F S_ .f32 := constant S_ .f32 0x00000000#32
  let main_v25 : FVec F S4096x32 .f32 := broadcastInDim S4096x32 ![] bcast_S_S4096x32 main_cst_6
  let main_v26 : IVec S4096x32 1 := cmpf .ogt main_v24 main_v25
  let main_c_7 : IVec S_ 1 := constantI S_ 1 1#1
  let main_v27 : IVec S_ 1 := (fun x v => Host.reduce IntOp.andi x v reducesTo_S4096x32_S_d0_1 h_S_) main_v26 main_c_7
  let main_v28 : IVec S_ 1 := andi main_v13 main_v27
  main_v28

def fn {F : FTy → Type} [FloatOps F] (main_arg0 : FVec F S4096x32x128 .f32) (main_arg1 : IVec S4096x32x32 32) (main_arg2 : FVec F S128x16 .f32) (main_arg3 : FVec F S16 .f32) : IVec S_ 1 :=
  let main_v0 : FVec F S4096x32x128 .f32 := Host.absf main_arg0
  let main_cst : FVec F S_ .f32 := constant S_ .f32 0x7F800000#32
  let main_v1 : FVec F S4096x32x128 .f32 := broadcastInDim S4096x32x128 ![] bcast_S_S4096x32x128 main_cst
  let main_v2 : IVec S4096x32x128 1 := cmpf .olt main_v0 main_v1
  let main_c : IVec S_ 1 := constantI S_ 1 1#1
  let main_v3 : IVec S_ 1 := (fun x v => Host.reduce IntOp.andi x v reducesTo_S4096x32x128_S_d0_1_2 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S4096x32x32 .f32 := sitofp .f32 main_arg1
  let main_v15 : IVec S32x32 32 := iotaInDim S32x32 32 0
  let main_v16 : IVec S32x32 32 := iotaInDim S32x32 32 1
  let main_c_4 : IVec S_ 32 := constantI S_ 32 0#32
  fn_part1 (F := F) main_v13 main_v14 main_v15 main_v16 main_c_4
-- ==== Kernel.lean ====
abbrev S4096x32x128 : Shape := ⟨3, ![4096, 32, 128]⟩
abbrev S4096x32x32 : Shape := ⟨3, ![4096, 32, 32]⟩
abbrev S128x16 : Shape := ⟨2, ![128, 16]⟩
abbrev S16 : Shape := ⟨1, ![16]⟩
abbrev S1024 : Shape := ⟨1, ![1024]⟩
abbrev S32 : Shape := ⟨1, ![32]⟩
abbrev S512 : Shape := ⟨1, ![512]⟩
abbrev S_ : Shape := ⟨0, ![]⟩
abbrev S1x1024 : Shape := ⟨2, ![1, 1024]⟩
abbrev S1024x1 : Shape := ⟨2, ![1024, 1]⟩
abbrev S1x32 : Shape := ⟨2, ![1, 32]⟩
abbrev S1024x32 : Shape := ⟨2, ![1024, 32]⟩
abbrev S32x1 : Shape := ⟨2, ![32, 1]⟩
abbrev S32x1024 : Shape := ⟨2, ![32, 1024]⟩
abbrev S1x512 : Shape := ⟨2, ![1, 512]⟩
abbrev S32x512 : Shape := ⟨2, ![32, 512]⟩
abbrev S1x16 : Shape := ⟨2, ![1, 16]⟩
abbrev S32x16 : Shape := ⟨2, ![32, 16]⟩
abbrev S4096x1024 : Shape := ⟨2, ![4096, 1024]⟩
abbrev S4096x512 : Shape := ⟨2, ![4096, 512]⟩
abbrev S256x32x128 : Shape := ⟨3, ![256, 32, 128]⟩
abbrev S256x1024 : Shape := ⟨2, ![256, 1024]⟩
abbrev S256x512 : Shape := ⟨2, ![256, 512]⟩
abbrev S8192x128 : Shape := ⟨2, ![8192, 128]⟩
abbrev S8192x16 : Shape := ⟨2, ![8192, 16]⟩
abbrev S256x32 : Shape := ⟨2, ![256, 32]⟩
abbrev S256x32x32 : Shape := ⟨3, ![256, 32, 32]⟩
abbrev S256x32x16 : Shape := ⟨3, ![256, 32, 16]⟩

abbrev nBuf : Space → Nat
  | .hbm => 132
  | .vmem => 12
  | .smem => 0
  | _ => 0

abbrev hbmTy0_0 (i : Nat) : BufTy := match i % 128 with
  | 0 => ⟨S4096x32x128, .f32⟩
  | 1 => ⟨S4096x32x32, .i32⟩
  | 2 => ⟨S128x16, .f32⟩
  | 3 => ⟨S16, .f32⟩
  | 4 => ⟨S1024, .i32⟩
  | 5 => ⟨S32, .i32⟩
  | 6 => ⟨S512, .i32⟩
  | 7 => ⟨S_, .i32⟩
  | 8 => ⟨S_, .i32⟩
  | 9 => ⟨S1024, .i32⟩
  | 10 => ⟨S1024, .i32⟩
  | 11 => ⟨S1024, .i32⟩
  | 12 => ⟨S_, .i32⟩
  | 13 => ⟨S1024, .i32⟩
  | 14 => ⟨S1024, .i1⟩
  | 15 => ⟨S1024, .i32⟩
  | 16 => ⟨S1024, .i32⟩
  | 17 => ⟨S_, .i32⟩
  | 18 => ⟨S1024, .i32⟩
  | 19 => ⟨S1024, .i1⟩
  | 20 => ⟨S1024, .i1⟩
  | 21 => ⟨S_, .i32⟩
  | 22 => ⟨S1024, .i32⟩
  | 23 => ⟨S1024, .i32⟩
  | 24 => ⟨S1024, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S1024, .i32⟩
  | 32 => ⟨S1024, .i32⟩
  | 33 => ⟨S_, .i32⟩
  | 34 => ⟨S1024, .i32⟩
  | 35 => ⟨S1024, .i1⟩
  | 36 => ⟨S_, .i32⟩
  | 37 => ⟨S1024, .i32⟩
  | 38 => ⟨S1024, .i1⟩
  | 39 => ⟨S_, .i32⟩
  | 40 => ⟨S_, .i1⟩
  | 41 => ⟨S1024, .i1⟩
  | 42 => ⟨S1024, .i1⟩
  | 43 => ⟨S1024, .i1⟩
  | 44 => ⟨S1024, .i32⟩
  | 45 => ⟨S1024, .i32⟩
  | 46 => ⟨S1024, .i32⟩
  | 47 => ⟨S1024, .i1⟩
  | 48 => ⟨S1024, .bf16⟩
  | 49 => ⟨S1x1024, .bf16⟩
  | 50 => ⟨S1024x1, .i32⟩
  | 51 => ⟨S_, .i32⟩
  | 52 => ⟨S_, .i32⟩
  | 53 => ⟨S1024x1, .i32⟩
  | 54 => ⟨S1024x1, .i32⟩
  | 55 => ⟨S1024x1, .i32⟩
  | 56 => ⟨S_, .i32⟩
  | 57 => ⟨S1024x1, .i32⟩
  | 58 => ⟨S1024x1, .i1⟩
  | 59 => ⟨S1024x1, .i32⟩
  | 60 => ⟨S1024x1, .i32⟩
  | 61 => ⟨S_, .i32⟩
  | 62 => ⟨S1024x1, .i32⟩
  | 63 => ⟨S1024x1, .i1⟩
  | 64 => ⟨S1024x1, .i1⟩
  | 65 => ⟨S_, .i32⟩
  | 66 => ⟨S1024x1, .i32⟩
  | 67 => ⟨S1024x1, .i32⟩
  | 68 => ⟨S1024x1, .i32⟩
  | 69 => ⟨S1x32, .i32⟩
  | 70 => ⟨S1024x32, .i32⟩
  | 71 => ⟨S1024x32, .i32⟩
  | 72 => ⟨S1024x32, .i1⟩
  | 73 => ⟨S1024x32, .bf16⟩
  | 74 => ⟨S32x1, .i32⟩
  | 75 => ⟨S1x1024, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S1x1024, .i32⟩
  | 83 => ⟨S1x1024, .i32⟩
  | 84 => ⟨S_, .i32⟩
  | 85 => ⟨S1x1024, .i32⟩
  | 86 => ⟨S1x1024, .i1⟩
  | 87 => ⟨S_, .i32⟩
  | 88 => ⟨S1x1024, .i32⟩
  | 89 => ⟨S1x1024, .i1⟩
  | 90 => ⟨S_, .i32⟩
  | 91 => ⟨S_, .i1⟩
  | 92 => ⟨S1x1024, .i1⟩
  | 93 => ⟨S1x1024, .i1⟩
  | 94 => ⟨S1x1024, .i1⟩
  | 95 => ⟨S1x1024, .i32⟩
  | 96 => ⟨S1x1024, .i32⟩
  | 97 => ⟨S1x1024, .i32⟩
  | 98 => ⟨S32x1024, .i32⟩
  | 99 => ⟨S32x1024, .i32⟩
  | 100 => ⟨S32x1024, .i1⟩
  | 101 => ⟨S32x1024, .bf16⟩
  | 102 => ⟨S32x1, .i32⟩
  | 103 => ⟨S1x512, .i32⟩
  | 104 => ⟨S_, .i32⟩
  | 105 => ⟨S_, .i32⟩
  | 106 => ⟨S1x512, .i32⟩
  | 107 => ⟨S1x512, .i32⟩
  | 108 => ⟨S1x512, .i32⟩
  | 109 => ⟨S_, .i32⟩
  | 110 => ⟨S1x512, .i32⟩
  | 111 => ⟨S1x512, .i1⟩
  | 112 => ⟨S1x512, .i32⟩
  | 113 => ⟨S1x512, .i32⟩
  | 114 => ⟨S_, .i32⟩
  | 115 => ⟨S1x512, .i32⟩
  | 116 => ⟨S1x512, .i1⟩
  | 117 => ⟨S1x512, .i1⟩
  | 118 => ⟨S_, .i32⟩
  | 119 => ⟨S1x512, .i32⟩
  | 120 => ⟨S1x512, .i32⟩
  | 121 => ⟨S1x512, .i32⟩
  | 122 => ⟨S32x512, .i32⟩
  | 123 => ⟨S32x512, .i32⟩
  | 124 => ⟨S32x512, .i1⟩
  | 125 => ⟨S32x512, .bf16⟩
  | 126 => ⟨S1x16, .f32⟩
  | 127 => ⟨S32x16, .f32⟩
  | _ => ⟨S4096x32x128, .f32⟩

abbrev hbmTy0_1 (i : Nat) : BufTy := match i % 128 with
  | 0 => ⟨S512, .f32⟩
  | 1 => ⟨S1x512, .f32⟩
  | 2 => ⟨S4096x1024, .i32⟩
  | 3 => ⟨S4096x512, .f32⟩
  | _ => ⟨S4096x32x128, .f32⟩

abbrev hbmTy (i : Nat) : BufTy := match i / 128 with
  | 0 => hbmTy0_0 i
  | 1 => hbmTy0_1 i
  | _ => ⟨S4096x32x128, .f32⟩

abbrev bufTy : (tb : Table) → Fin (tcTables nBuf tb) → BufTy
  | .hbm, ⟨i, _⟩ => hbmTy i
  | .local _ .vmem, ⟨0, _⟩ => ⟨S256x32x128, .f32⟩
  | .local _ .vmem, ⟨1, _⟩ => ⟨S256x32x128, .f32⟩
  | .local _ .vmem, ⟨2, _⟩ => ⟨S256x1024, .i32⟩
  | .local _ .vmem, ⟨3, _⟩ => ⟨S256x1024, .i32⟩
  | .local _ .vmem, ⟨4, _⟩ => ⟨S128x16, .f32⟩
  | .local _ .vmem, ⟨5, _⟩ => ⟨S1x1024, .bf16⟩
  | .local _ .vmem, ⟨6, _⟩ => ⟨S1024x32, .bf16⟩
  | .local _ .vmem, ⟨7, _⟩ => ⟨S32x1024, .bf16⟩
  | .local _ .vmem, ⟨8, _⟩ => ⟨S32x512, .bf16⟩
  | .local _ .vmem, ⟨9, _⟩ => ⟨S1x512, .f32⟩
  | .local _ .vmem, ⟨10, _⟩ => ⟨S256x512, .f32⟩
  | .local _ .vmem, ⟨11, _⟩ => ⟨S256x512, .f32⟩
  | _, _ => ⟨S4096x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_c_1 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_c_2 : Ref sig .tc := ⟨.hbm, 76, rfl⟩
abbrev main_call3_v0 : Ref sig .tc := ⟨.hbm, 77, rfl⟩
abbrev main_call3_c : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_c_1 : Ref sig .tc := ⟨.hbm, 84, rfl⟩
abbrev main_call3_v5 : Ref sig .tc := ⟨.hbm, 85, rfl⟩
abbrev main_call3_v6 : Ref sig .tc := ⟨.hbm, 86, rfl⟩
abbrev main_call3_c_2 : Ref sig .tc := ⟨.hbm, 87, rfl⟩
abbrev main_call3_v7 : Ref sig .tc := ⟨.hbm, 88, rfl⟩
abbrev main_call3_v8 : Ref sig .tc := ⟨.hbm, 89, rfl⟩
abbrev main_call3_c_3 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_v17 : Ref sig .tc := ⟨.hbm, 97, rfl⟩
abbrev main_v18 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev main_v22 : Ref sig .tc := ⟨.hbm, 102, rfl⟩
abbrev main_v23 : Ref sig .tc := ⟨.hbm, 103, rfl⟩
abbrev main_c_3 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_c : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_0 : Ref sig .tc := ⟨.hbm, 118, rfl⟩
abbrev main_call4_v12 : Ref sig .tc := ⟨.hbm, 119, rfl⟩
abbrev main_call4_v13 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1024 : S_.BroadcastsInDim S1024 (![] : Fin 0 → Fin S1024.rank)
  shapeCasts_S1024_S1x1024 : S1024.ShapeCasts S1x1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S32_S1x32_1 : S32.BroadcastsInDim S1x32 (![1] : Fin 1 → Fin S1x32.rank)
  bcast_S1024x1_S1024x32_0_1 : S1024x1.BroadcastsInDim S1024x32 (![0, 1] : Fin 2 → Fin S1024x32.rank)
  bcast_S1x32_S1024x32_0_1 : S1x32.BroadcastsInDim S1024x32 (![0, 1] : Fin 2 → Fin S1024x32.rank)
  bcast_S32_S32x1_0 : S32.BroadcastsInDim S32x1 (![0] : Fin 1 → Fin S32x1.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S32x1_S32x1024_0_1 : S32x1.BroadcastsInDim S32x1024 (![0, 1] : Fin 2 → Fin S32x1024.rank)
  bcast_S1x1024_S32x1024_0_1 : S1x1024.BroadcastsInDim S32x1024 (![0, 1] : Fin 2 → Fin S32x1024.rank)
  bcast_S512_S1x512_1 : S512.BroadcastsInDim S1x512 (![1] : Fin 1 → Fin S1x512.rank)
  bcast_S_S1x512 : S_.BroadcastsInDim S1x512 (![] : Fin 0 → Fin S1x512.rank)
  bcast_S32x1_S32x512_0_1 : S32x1.BroadcastsInDim S32x512 (![0, 1] : Fin 2 → Fin S32x512.rank)
  bcast_S1x512_S32x512_0_1 : S1x512.BroadcastsInDim S32x512 (![0, 1] : Fin 2 → Fin S32x512.rank)
  shapeCasts_S16_S1x16 : S16.ShapeCasts S1x16
  bcast_S1x16_S32x16_0_1 : S1x16.BroadcastsInDim S32x16 (![0, 1] : Fin 2 → Fin S32x16.rank)
  shapeCasts_S32x16_S512 : S32x16.ShapeCasts S512
  shapeCasts_S512_S1x512 : S512.ShapeCasts S1x512
  shapeCasts_S4096x32x32_S4096x1024 : S4096x32x32.ShapeCasts S4096x1024
  inb_S256x32x128_S256x32x128_0_0_0 : ∀ a, (![0, 0, 0] : Fin 3 → Nat) a + S256x32x128.size a ≤ S256x32x128.size a
  h_S256x32x128 : 0 < S256x32x128.numel
  shapeCasts_S256x32x128_S8192x128 : S256x32x128.ShapeCasts S8192x128
  inb_S128x16_S128x16_0_0 : ∀ a, (![0, 0] : Fin 2 → Nat) a + S128x16.size a ≤ S128x16.size a
  h_S128x16 : 0 < S128x16.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  broadcasts_S1x1024_S256x1024 : S1x1024.Broadcasts S256x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  bitsLt_bf16_f32 : FTy.bits .bf16 < FTy.bits .f32
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  shapeCasts_S256x1024_S256x32x32 : S256x1024.ShapeCasts S256x32x32
  shapeCasts_S8192x16_S256x32x16 : S8192x16.ShapeCasts S256x32x16
  shapeCasts_S256x32x16_S256x512 : S256x32x16.ShapeCasts S256x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S512 : S1x512.ShapeCasts S512
  broadcasts_S1x512_S256x512 : S1x512.Broadcasts S256x512
  inb_S256x512_S256x512_0_0 : ∀ a, (![0, 0] : Fin 2 → Nat) a + S256x512.size a ≤ S256x512.size a
  h_S256x512 : 0 < S256x512.numel
  dot_S8192x128_S128x16_S8192x16_1_0_0_1_n_n_wf : DotDims.WF S8192x128 S128x16 S8192x16 [1] [0] [0] [1] [] []
  dot_S256x1024_S1024x32_S256x32_1_0_0_1_n_n_wf : DotDims.WF S256x1024 S1024x32 S256x32 [1] [0] [0] [1] [] []
  dot_S256x32_S32x1024_S256x1024_1_0_0_1_n_n_wf : DotDims.WF S256x32 S32x1024 S256x1024 [1] [0] [0] [1] [] []
  dot_S256x32x32_S256x32x16_S256x32x16_2_1_1_2_0_0_wf : DotDims.WF S256x32x32 S256x32x16 S256x32x16 [2] [1] [1] [2] [0] [0]
  dot_S256x32_S32x512_S256x512_1_0_0_1_n_n_wf : DotDims.WF S256x32 S32x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x128.size a ≤ S4096x32x128.size a
  hwx0_0 : ∀ i : grid0.Coords, EltTy.bits .f32 = 32 ∨ (Rect.block (s := S4096x32x128) S256x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .i32 = 32 ∨ (Rect.block (s := S4096x1024) S256x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .bf16 = 32 ∨ (Rect.block (s := S1x1024) S1x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x32.size a ≤ S1024x32.size a
  hwx0_4 : ∀ i : grid0.Coords, EltTy.bits .bf16 = 32 ∨ (Rect.block (s := S1024x32) S1024x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x1024.size a
  hwx0_5 : ∀ i : grid0.Coords, EltTy.bits .bf16 = 32 ∨ (Rect.block (s := S32x1024) S32x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x512.size a ≤ S32x512.size a
  hwx0_6 : ∀ i : grid0.Coords, EltTy.bits .bf16 = 32 ∨ (Rect.block (s := S32x512) S32x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S4096x512.size a
  hwx0_8 : ∀ i : grid0.Coords, EltTy.bits .f32 = 32 ∨ (Rect.block (s := S4096x512) S256x512.size (cc0_transform_8 i) (hinb0_8 i)).WholeWords (EltTy.packing .f32)

variable [Facts₀]

def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf
def dot_S256x1024_S1024x32_S256x32_1_0_0_1_n_n : DotDims S256x1024 S1024x32 S256x32 where
  lhsContracting := [1]
  rhsContracting := [0]
  lhsNonContracting := [0]
  rhsNonContracting := [1]
  lhsBatch := []
  rhsBatch := []
  wf := dot_S256x1024_S1024x32_S256x32_1_0_0_1_n_n_wf
def dot_S256x32_S32x1024_S256x1024_1_0_0_1_n_n : DotDims S256x32 S32x1024 S256x1024 where
  lhsContracting := [1]
  rhsContracting := [0]
  lhsNonContracting := [0]
  rhsNonContracting := [1]
  lhsBatch := []
  rhsBatch := []
  wf := dot_S256x32_S32x1024_S256x1024_1_0_0_1_n_n_wf
def dot_S256x32x32_S256x32x16_S256x32x16_2_1_1_2_0_0 : DotDims S256x32x32 S256x32x16 S256x32x16 where
  lhsContracting := [2]
  rhsContracting := [1]
  lhsNonContracting := [1]
  rhsNonContracting := [2]
  lhsBatch := [0]
  rhsBatch := [0]
  wf := dot_S256x32x32_S256x32x16_S256x32x16_2_1_1_2_0_0_wf
def dot_S256x32_S32x512_S256x512_1_0_0_1_n_n : DotDims S256x32 S32x512 S256x512 where
  lhsContracting := [1]
  rhsContracting := [0]
  lhsNonContracting := [0]
  rhsNonContracting := [1]
  lhsBatch := []
  rhsBatch := []
  wf := dot_S256x32_S32x512_S256x512_1_0_0_1_n_n_wf

abbrev win0_0 : Pipeline.Window sig grid0 :=
  Pipeline.Window.ofSpec (Memref.whole main_arg0) S256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S32x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S32x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S256x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x32x128 : Shape := ⟨3, ![4096, 32, 128]⟩
abbrev S4096x32x32 : Shape := ⟨3, ![4096, 32, 32]⟩
abbrev S128x16 : Shape := ⟨2, ![128, 16]⟩
abbrev S16 : Shape := ⟨1, ![16]⟩
abbrev S32x32 : Shape := ⟨2, ![32, 32]⟩
abbrev S_ : Shape := ⟨0, ![]⟩
abbrev S1x32x32 : Shape := ⟨3, ![1, 32, 32]⟩
abbrev S4096x32 : Shape := ⟨2, ![4096, 32]⟩
abbrev S4096x32x1 : Shape := ⟨3, ![4096, 32, 1]⟩
abbrev S4096x1x32 : Shape := ⟨3, ![4096, 1, 32]⟩
abbrev S4096x32x16 : Shape := ⟨3, ![4096, 32, 16]⟩
abbrev S1x1x16 : Shape := ⟨3, ![1, 1, 16]⟩
abbrev S4096x512 : Shape := ⟨2, ![4096, 512]⟩

abbrev nBuf : Space → Nat
  | .hbm => 30
  | .vmem => 0
  | .smem => 0
  | _ => 0

abbrev bufTy : (tb : Table) → Fin (tcTables nBuf tb) → BufTy
  | .hbm, ⟨0, _⟩ => ⟨S4096x32x128, .f32⟩
  | .hbm, ⟨1, _⟩ => ⟨S4096x32x32, .i32⟩
  | .hbm, ⟨2, _⟩ => ⟨S128x16, .f32⟩
  | .hbm, ⟨3, _⟩ => ⟨S16, .f32⟩
  | .hbm, ⟨4, _⟩ => ⟨S4096x32x32, .f32⟩
  | .hbm, ⟨5, _⟩ => ⟨S32x32, .i32⟩
  | .hbm, ⟨6, _⟩ => ⟨S32x32, .i32⟩
  | .hbm, ⟨7, _⟩ => ⟨S_, .i32⟩
  | .hbm, ⟨8, _⟩ => ⟨S32x32, .i32⟩
  | .hbm, ⟨9, _⟩ => ⟨S32x32, .i32⟩
  | .hbm, ⟨10, _⟩ => ⟨S32x32, .i1⟩
  | .hbm, ⟨11, _⟩ => ⟨S32x32, .f32⟩
  | .hbm, ⟨12, _⟩ => ⟨S1x32x32, .f32⟩
  | .hbm, ⟨13, _⟩ => ⟨S4096x32x32, .f32⟩
  | .hbm, ⟨14, _⟩ => ⟨S4096x32x32, .f32⟩
  | .hbm, ⟨15, _⟩ => ⟨S_, .f32⟩
  | .hbm, ⟨16, _⟩ => ⟨S4096x32, .f32⟩
  | .hbm, ⟨17, _⟩ => ⟨S4096x32, .f32⟩
  | .hbm, ⟨18, _⟩ => ⟨S4096x32x1, .f32⟩
  | .hbm, ⟨19, _⟩ => ⟨S4096x32x32, .f32⟩
  | .hbm, ⟨20, _⟩ => ⟨S4096x32x32, .f32⟩
  | .hbm, ⟨21, _⟩ => ⟨S4096x1x32, .f32⟩
  | .hbm, ⟨22, _⟩ => ⟨S4096x32x32, .f32⟩
  | .hbm, ⟨23, _⟩ => ⟨S4096x32x32, .f32⟩
  | .hbm, ⟨24, _⟩ => ⟨S4096x32x16, .f32⟩
  | .hbm, ⟨25, _⟩ => ⟨S4096x32x16, .f32⟩
  | .hbm, ⟨26, _⟩ => ⟨S1x1x16, .f32⟩
  | .hbm, ⟨27, _⟩ => ⟨S4096x32x16, .f32⟩
  | .hbm, ⟨28, _⟩ => ⟨S4096x32x16, .f32⟩
  | .hbm, ⟨29, _⟩ => ⟨S4096x512, .f32⟩
  | _, _ => ⟨S4096x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S4096x32x32_0_1_2 : S1x32x32.BroadcastsInDim S4096x32x32 (![0, 1, 2] : Fin 3 → Fin S4096x32x32.rank)
  reducesTo_S4096x32x32_S4096x32_d2 : S4096x32x32.ReducesTo [2] S4096x32
  h_S_ : 0 < S_.numel
  bcast_S4096x32_S4096x32x1_0_1 : S4096x32.BroadcastsInDim S4096x32x1 (![0, 1] : Fin 2 → Fin S4096x32x1.rank)
  bcast_S4096x32x1_S4096x32x32_0_1_2 : S4096x32x1.BroadcastsInDim S4096x32x32 (![0, 1, 2] : Fin 3 → Fin S4096x32x32.rank)
  bcast_S4096x32_S4096x1x32_0_2 : S4096x32.BroadcastsInDim S4096x1x32 (![0, 2] : Fin 2 → Fin S4096x1x32.rank)
  bcast_S4096x1x32_S4096x32x32_0_1_2 : S4096x1x32.BroadcastsInDim S4096x32x32 (![0, 1, 2] : Fin 3 → Fin S4096x32x32.rank)
  bcast_S16_S1x1x16_2 : S16.BroadcastsInDim S1x1x16 (![2] : Fin 1 → Fin S1x1x16.rank)
  bcast_S1x1x16_S4096x32x16_0_1_2 : S1x1x16.BroadcastsInDim S4096x32x16 (![0, 1, 2] : Fin 3 → Fin S4096x32x16.rank)
  shapeCasts_S4096x32x16_S4096x512 : S4096x32x16.ShapeCasts S4096x512
  dot_S4096x32x128_S128x16_S4096x32x16_2_0_01_1_n_n_wf : DotDims.WF S4096x32x128 S128x16 S4096x32x16 [2] [0] [0, 1] [1] [] []
  dot_S4096x32x32_S4096x32x16_S4096x32x16_2_1_1_2_0_0_wf : DotDims.WF S4096x32x32 S4096x32x16 S4096x32x16 [2] [1] [1] [2] [0] [0]

variable [Facts₀]

def dot_S4096x32x128_S128x16_S4096x32x16_2_0_01_1_n_n : DotDims S4096x32x128 S128x16 S4096x32x16 where
  lhsContracting := [2]
  rhsContracting := [0]
  lhsNonContracting := [0, 1]
  rhsNonContracting := [1]
  lhsBatch := []
  rhsBatch := []
  wf := dot_S4096x32x128_S128x16_S4096x32x16_2_0_01_1_n_n_wf
def dot_S4096x32x32_S4096x32x16_S4096x32x16_2_1_1_2_0_0 : DotDims S4096x32x32 S4096x32x16 S4096x32x16 where
  lhsContracting := [2]
  rhsContracting := [1]
  lhsNonContracting := [1]
  rhsNonContracting := [2]
  lhsBatch := [0]
  rhsBatch := [0]
  wf := dot_S4096x32x32_S4096x32x16_S4096x32x16_2_1_1_2_0_0_wf

class Facts : Prop extends Facts₀ where

variable [Facts]
-- ==== Proof.Spec.lean ====
/-
  The mathematics of one graph-convolution layer, stated once and away from both programs.

  One sample has 32 nodes. Its adjacency words `a i j` (32-bit integers, read signed) get a self loop added:
  `ahatR a i j = a i j + [i = j]`. The degree of node `i` is the row sum `degR a i = ∑ j, ahatR a i j`, and
  `rs a i` is its inverse square root. With node features `x j d`, a weight matrix `w d o` and a bias `β o`,
  put `xw x w j o = ∑ d, x j d * w d o`. The layer's value at node `i`, feature `o` is written in two arrangements:

    outK  =  (∑ j, (ahat i j * rs j) * xw j o) * rs i + β o      (scale the columns, aggregate, then scale the row)
    outR  =  (∑ j, ((ahat i j * rs i) * rs j) * xw j o) + β o    (normalise the matrix first, then aggregate)

  On the extended reals the two differ only by moving the factor `rs i` across a finite sum, which is
  distributivity; it holds when every quantity involved is a real number, which is the case as soon as the
  features and weights are finite and every degree is positive (then `rs` is a positive real).

  The arrays: features [4096, 32, 128], adjacency [4096, 32, 32], weights [128, 16], bias [16], and the result
  [4096, 512] whose column `c` holds node `c / 16`, feature `c % 16`.
-/
import Idealize.ShloMosaic.PureOps.Ideal
import Idealize.ShloMosaic.Lib.ValueIdx

noncomputable section

namespace Cert.Gcn

open Idealize.ShloMosaic Idealize.ShloMosaic.ValueIdx

/-! ## One sample -/

/-- Entry `(i, j)` of a sample's adjacency with the self loop added, as a real number. -/
def ahatR (a : Fin 32 → Fin 32 → BitVec 32) (i j : Fin 32) : ℝ :=
  ((a i j).toInt : ℝ) + (if i = j then 1 else 0)

/-- The degree of node `i`: the sum of row `i`. -/
def degR (a : Fin 32 → Fin 32 → BitVec 32) (i : Fin 32) : ℝ :=
  ∑ j : Fin 32, ahatR a i j

/-- The inverse square root of a node's degree, on the extended reals. -/
def rs (a : Fin 32 → Fin 32 → BitVec 32) (i : Fin 32) : EReal :=
  Ideal.rsqrt ((degR a i : ℝ) : EReal)

/-- Node `j`'s features times the weight matrix, at output feature `o`. -/
def xw (x : Fin 32 → Fin 128 → EReal) (w : Fin 128 → Fin 16 → EReal) (j : Fin 32) (o : Fin 16) : EReal :=
  ∑ d : Fin 128, x j d * w d o

/-- Columns scaled, aggregated over the neighbours, then the row scaled (no bias yet). -/
def aggK (a : Fin 32 → Fin 32 → BitVec 32) (x : Fin 32 → Fin 128 → EReal) (w : Fin 128 → Fin 16 → EReal)
    (i : Fin 32) (o : Fin 16) : EReal :=
  (∑ j : Fin 32, ((ahatR a i j : ℝ) : EReal) * rs a j * xw x w j o) * rs a i

/-- The first arrangement, with the bias. -/
def outK (a : Fin 32 → Fin 32 → BitVec 32) (x : Fin 32 → Fin 128 → EReal) (w : Fin 128 → Fin 16 → EReal)
    (β : Fin 16 → EReal) (i : Fin 32) (o : Fin 16) : EReal :=
  aggK a x w i o + β o

/-- The second arrangement: the symmetrically normalised matrix applied to `xw`, plus the bias. -/
def outR (a : Fin 32 → Fin 32 → BitVec 32) (x : Fin 32 → Fin 128 → EReal) (w : Fin 128 → Fin 16 → EReal)
    (β : Fin 16 → EReal) (i : Fin 32) (o : Fin 16) : EReal :=
  (∑ j : Fin 32, ((ahatR a i j : ℝ) : EReal) * rs a i * rs a j * xw x w j o) + β o

/-! ## The arrays -/

abbrev SX : Shape := ⟨3, ![4096, 32, 128]⟩
abbrev SA : Shape := ⟨3, ![4096, 32, 32]⟩
abbrev SW : Shape := ⟨2, ![128, 16]⟩
abbrev SB : Shape := ⟨1, ![16]⟩
abbrev SO : Shape := ⟨2, ![4096, 512]⟩

/-- Sample `b`'s adjacency words. -/
def adjOf (A : SA.Idx → BitVec 32) (b : Fin 4096) : Fin 32 → Fin 32 → BitVec 32 := fun i j => A (ix3 b i j)
/-- Sample `b`'s node features. -/
def featOf (X : SX.Idx → EReal) (b : Fin 4096) : Fin 32 → Fin 128 → EReal := fun j d => X (ix3 b j d)
/-- The weight matrix by coordinates. -/
def matOf (W : SW.Idx → EReal) : Fin 128 → Fin 16 → EReal := fun d o => W (ix2 d o)
/-- The bias by coordinate. -/
def vecOf (B : SB.Idx → EReal) : Fin 16 → EReal := fun o => B (ix1 o)

/-- The sample a result index belongs to. -/
def row (y : SO.Idx) : Fin 4096 := ⟨(y 0).val, idx2_lt0 y⟩
/-- The node a result index belongs to. -/
def node (y : SO.Idx) : Fin 32 := ⟨(y 1).val / 16, by have := idx2_lt1 y; omega⟩
/-- The output feature a result index belongs to. -/
def feat (y : SO.Idx) : Fin 16 := ⟨(y 1).val % 16, Nat.mod_lt _ (by decide)⟩

/-- The whole result array in the first arrangement. -/
def GK (X : SX.Idx → EReal) (A : SA.Idx → BitVec 32) (W : SW.Idx → EReal) (B : SB.Idx → EReal) : SO.Idx → EReal :=
  fun y => outK (adjOf A (row y)) (featOf X (row y)) (matOf W) (vecOf B) (node y) (feat y)

/-- The whole result array in the second arrangement. -/
def GR (X : SX.Idx → EReal) (A : SA.Idx → BitVec 32) (W : SW.Idx → EReal) (B : SB.Idx → EReal) : SO.Idx → EReal :=
  fun y => outR (adjOf A (row y)) (featOf X (row y)) (matOf W) (vecOf B) (node y) (feat y)

/-- A finite sum of real numbers, coerced, is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

end Cert.Gcn

end
-- ==== Proof.Algebra.lean ====
/-
  The law joining the two arrangements of one graph-convolution layer.

  Both arrangements are finite sums of products on the extended reals. When the features and the weights are
  finite and every degree is positive, every factor is the coercion of a real number: a feature or weight is
  the coercion of its real part, the inverse square root of a positive degree is the real `(√deg)⁻¹`, and so
  the product `xw` is the coercion of a real sum. Each side is then the coercion of a real expression plus
  the bias, and in the reals moving the factor `rs i` across the sum is distributivity. The bias may be
  infinite; it is the same summand on both sides and is never opened.
-/
import proofs.«113682_g72318659330489_cont_9to1c4b_23_26_alg».proof.Proof.Spec

noncomputable section

namespace Cert.Gcn

open Idealize.ShloMosaic

/-- The inverse square root of a positive degree is the coercion of the real `(√deg)⁻¹`. -/
private theorem rs_eq_coe (a : Fin 32 → Fin 32 → BitVec 32) (k : Fin 32) (h : 0 < degR a k) :
    rs a k = (((Real.sqrt (degR a k))⁻¹ : ℝ) : EReal) := by
  unfold rs
  rw [Ideal.rsqrt_coe, if_neg (not_lt.mpr h.le), if_neg (ne_of_gt h)]

/-- With finite features and weights, `xw` is the coercion of the real sum of products of real parts. -/
private theorem xw_eq_coe (x : Fin 32 → Fin 128 → EReal) (w : Fin 128 → Fin 16 → EReal)
    (hx : ∀ j d, x j d ≠ ⊤ ∧ x j d ≠ ⊥) (hw : ∀ d o, w d o ≠ ⊤ ∧ w d o ≠ ⊥) (j : Fin 32) (o : Fin 16) :
    xw x w j o = ((∑ d : Fin 128, (x j d).toReal * (w d o).toReal : ℝ) : EReal) := by
  unfold xw
  rw [coe_sum]
  refine Finset.sum_congr rfl fun d _ => ?_
  rw [EReal.coe_mul, EReal.coe_toReal (hx j d).1 (hx j d).2, EReal.coe_toReal (hw d o).1 (hw d o).2]

/-- Distributivity in the reals: the row factor `si` moves across the sum and next to the matrix entry. -/
private theorem real_law (A s y : Fin 32 → ℝ) (si : ℝ) :
    (∑ j : Fin 32, A j * s j * y j) * si = ∑ j : Fin 32, A j * si * s j * y j := by
  rw [Finset.sum_mul]
  refine Finset.sum_congr rfl fun j _ => ?_
  ring

/-- The two arrangements agree when the features and weights are finite and every degree is positive. -/
theorem outK_eq_outR (a : Fin 32 → Fin 32 → BitVec 32) (x : Fin 32 → Fin 128 → EReal) (w : Fin 128 → Fin 16 → EReal)
    (β : Fin 16 → EReal) (hx : ∀ j d, x j d ≠ ⊤ ∧ x j d ≠ ⊥) (hw : ∀ d o, w d o ≠ ⊤ ∧ w d o ≠ ⊥)
    (hdeg : ∀ i, 0 < degR a i) (i : Fin 32) (o : Fin 16) :
    outK a x w β i o = outR a x w β i o := by
  -- the real numbers behind the extended-real factors
  let s : Fin 32 → ℝ := fun k => (Real.sqrt (degR a k))⁻¹
  let y : Fin 32 → ℝ := fun j => ∑ d : Fin 128, (x j d).toReal * (w d o).toReal
  have hrs : ∀ k : Fin 32, rs a k = ((s k : ℝ) : EReal) := fun k => rs_eq_coe a k (hdeg k)
  have hxw : ∀ j : Fin 32, xw x w j o = ((y j : ℝ) : EReal) := fun j => xw_eq_coe x w hx hw j o
  -- the first arrangement without its bias is the coercion of a real number
  have hK : (∑ j : Fin 32, ((ahatR a i j : ℝ) : EReal) * rs a j * xw x w j o) * rs a i
      = (((∑ j : Fin 32, ahatR a i j * s j * y j) * s i : ℝ) : EReal) := by
    rw [EReal.coe_mul, coe_sum, hrs i]
    refine congrArg (· * ((s i : ℝ) : EReal)) ?_
    refine Finset.sum_congr rfl fun j _ => ?_
    rw [hrs j, hxw j, EReal.coe_mul, EReal.coe_mul]
  -- so is the second
  have hR : (∑ j : Fin 32, ((ahatR a i j : ℝ) : EReal) * rs a i * rs a j * xw x w j o)
      = ((∑ j : Fin 32, ahatR a i j * s i * s j * y j : ℝ) : EReal) := by
    rw [coe_sum]
    refine Finset.sum_congr rfl fun j _ => ?_
    rw [hrs i, hrs j, hxw j, EReal.coe_mul, EReal.coe_mul, EReal.coe_mul]
  -- the bias is the same summand on both sides
  unfold outK outR aggK
  refine congrArg (· + β o) ?_
  rw [hK, hR, real_law]

end Cert.Gcn

end
-- ==== Proof.PreDecode.lean ====
/-
  What the precondition says, decoded: every entry of the features, the weights and the bias is a real number
  (neither infinity), and every node's degree, as the reference program computes it, is positive.
-/
import proofs.«113682_g72318659330489_cont_9to1c4b_23_26_alg».proof.Pre_finite_inputs
import proofs.«113682_g72318659330489_cont_9to1c4b_23_26_alg».proof.Proof.Gen.Pre_finite_inputs
import proofs.«113682_g72318659330489_cont_9to1c4b_23_26_alg».proof.Proof.Gen.ReferenceIdeal.Read
import proofs.«113682_g72318659330489_cont_9to1c4b_23_26_alg».proof.Proof.Spec
import Idealize.ShloMosaic.Lib.ReduceAll
import Idealize.ShloMosaic.Lib.ValueIdx

noncomputable section

namespace Cert.Gcn.Pre

open Idealize.ShloMosaic Idealize.ShloMosaic.ValueIdx

/-- The shape of a scalar has exactly one index. -/
instance : Subsingleton Cert.Pre_finite_inputs.S_.Idx := ⟨fun a b => funext fun d => d.elim0⟩

/-- On the extended reals `|x| < +∞` (the pattern `0x7F800000` denotes `⊤`, and `|x| = max x (-x)`) says that
    `x` is neither infinity. -/
theorem finite_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  have hlt : max x (-x) < ⊤ := by
    by_contra hn
    simp only [hn, decide_false, BitVec.ofBool_false] at h
    exact absurd h (by decide)
  rw [max_lt_iff] at hlt
  refine ⟨ne_of_lt hlt.1, fun hb => ?_⟩
  rw [hb] at hlt
  exact absurd hlt.2 (by rw [EReal.neg_bot]; exact lt_irrefl _)

/-- The comparison `x > 0` against the zero pattern, read on the extended reals. -/
theorem pos_of_gt_zero (x : EReal)
    (h : FloatOps.cmpf (F := Ideal) (φ := .f32) .ogt x (FloatOps.ofBits (F := Ideal) .f32 0x00000000#32) = 1#1) :
    (0 : EReal) < x := by
  change Ideal.cmp .ogt x (Ideal.ofBits .f32 0x00000000#32) = 1#1 at h
  rw [Ideal.ofBits_zero_f32] at h
  unfold Ideal.cmp at h
  by_contra hn
  simp only [hn, decide_false, BitVec.ofBool_false] at h
  exact absurd h (by decide)

/-- The degree array the precondition computes — the row sums of the adjacency words, converted, plus the 32 by 32
    identity built from two iotas — is, operation for operation, the reference program's degree stage: the two terms
    differ only in the names of their (reducible) shapes and in the proofs of their shape relations. -/
theorem deg_eq (x1 : IVec Cert.Pre_finite_inputs.S4096x32x32 32) :
    Host.reduceAdd (F := Ideal)
      (addf (sitofp .f32 x1)
        (broadcastInDim Cert.Pre_finite_inputs.S4096x32x32 ![0, 1, 2] Cert.Pre_finite_inputs.Facts.bcast_S1x32x32_S4096x32x32_0_1_2
          (broadcastInDim Cert.Pre_finite_inputs.S1x32x32 ![1, 2] Cert.Pre_finite_inputs.Facts.bcast_S32x32_S1x32x32_1_2
            (uitofp .f32 (cmpi .eq (addi (iotaInDim Cert.Pre_finite_inputs.S32x32 32 0)
              (broadcastInDim Cert.Pre_finite_inputs.S32x32 ![] Cert.Pre_finite_inputs.Facts.bcast_S_S32x32 (constantI Cert.Pre_finite_inputs.S_ 32 0#32)))
              (iotaInDim Cert.Pre_finite_inputs.S32x32 32 1))))))
      (constant Cert.Pre_finite_inputs.S_ .f32 0x00000000#32)
      Cert.Pre_finite_inputs.Facts.reducesTo_S4096x32x32_S4096x32_d2 Cert.Pre_finite_inputs.Facts.h_S_
    = Cert.ReferenceIdeal.Read.val_main_v10 (F := Ideal) x1 := by
  unfold Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_cst
  rfl

/-- What the precondition says: it is the conjunction of three "every entry has `|entry| < +∞`" tests, on the
    features, the weights and the bias, and one "every degree is positive" test; each test is a reduction by `and`
    of an array of comparisons, so the result 1 gives the comparison at every index. -/
theorem pre_decode (x0 : FVec Ideal Cert.Pre_finite_inputs.S4096x32x128 .f32) (x1 : IVec Cert.Pre_finite_inputs.S4096x32x32 32)
    (x2 : FVec Ideal Cert.Pre_finite_inputs.S128x16 .f32) (x3 : FVec Ideal Cert.Pre_finite_inputs.S16 .f32)
    (h : Cert.Pre_finite_inputs.fn (F := Ideal) x0 x1 x2 x3 = fun _ => 1#1) :
    (∀ i, x0 i ≠ ⊤ ∧ x0 i ≠ ⊥) ∧ (∀ i, x2 i ≠ ⊤ ∧ x2 i ≠ ⊥) ∧ (∀ i, x3 i ≠ ⊤ ∧ x3 i ≠ ⊥)
      ∧ (∀ (b : Fin 4096) (i : Fin 32), (0 : EReal) < Cert.ReferenceIdeal.Read.val_main_v10 (F := Ideal) x1 (ix2 b i)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun b i => ?_⟩
  · exact finite_of_abs_lt_inf (x0 i) (Host.reduce_andi_all _ _ _ _ ix0 h1 i)
  · exact finite_of_abs_lt_inf (x2 i) (Host.reduce_andi_all _ _ _ _ ix0 h2 i)
  · exact finite_of_abs_lt_inf (x3 i) (Host.reduce_andi_all _ _ _ _ ix0 h3 i)
  · exact lt_of_lt_of_eq (pos_of_gt_zero _ (Host.reduce_andi_all _ _ _ _ ix0 h4 (ix2 b i)))
      (congrFun (deg_eq x1) (ix2 b i))

end Cert.Gcn.Pre

end
-- ==== Proof.LibWords.lean ====
/-
  Small natural numbers as 32-bit words.

  A natural number `n` below 2^31 written as a 32-bit word has its sign bit clear, so read unsigned or signed it is `n`
  itself. Everything a program computes on such words with signed comparisons and a signed remainder is then the
  arithmetic of the naturals: the word is not negative, it is at most any larger such word, and its remainder by a larger
  positive word is the word itself (a remainder by a divisor that is neither zero nor minus one is never at the
  division's corner, whatever unit computes it).
-/
import Idealize.ShloMosaic.PureOps

namespace Cert.Lib.Words

open Idealize.ShloMosaic

/-- Read unsigned, the word of `n < 2^31` is `n`. -/
theorem toNat_ofNat (n : Nat) (h : n < 2 ^ 31) : (BitVec.ofNat 32 n).toNat = n := by
  rw [BitVec.toNat_ofNat]; exact Nat.mod_eq_of_lt (by omega)

/-- Its sign bit is clear. -/
theorem msb_ofNat (n : Nat) (h : n < 2 ^ 31) : (BitVec.ofNat 32 n).msb = false := by
  rw [BitVec.msb_eq_false_iff_two_mul_lt, toNat_ofNat n h]; omega

/-- Read signed, it is `n` too. -/
theorem toInt_ofNat (n : Nat) (h : n < 2 ^ 31) : (BitVec.ofNat 32 n).toInt = (n : Int) := by
  rw [BitVec.toInt_eq_toNat_of_msb (msb_ofNat n h), toNat_ofNat n h]

/-- Two such words are equal only if the numbers are. -/
theorem ofNat_ne (n k : Nat) (hn : n < 2 ^ 31) (hk : k < 2 ^ 31) (hne : n ≠ k) : BitVec.ofNat 32 n ≠ BitVec.ofNat 32 k :=
  fun e => hne (by rw [← toNat_ofNat n hn, ← toNat_ofNat k hk, e])

/-- The signed remainder of `n` by a larger `d` is `n`: the truncated remainder of two numbers that are not negative is
    the remainder of the naturals. -/
theorem srem_ofNat (n d : Nat) (hn : n < d) (hd : d < 2 ^ 31) :
    (BitVec.ofNat 32 n).srem (BitVec.ofNat 32 d) = BitVec.ofNat 32 n := by
  apply BitVec.eq_of_toInt_eq
  rw [BitVec.toInt_srem, toInt_ofNat n (by omega), toInt_ofNat d hd]
  exact Int.tmod_eq_of_lt (by omega) (by omega)

/-- A positive `d < 2^31` is not a corner of the signed division: it is not the zero word, and it is not minus one (whose
    sign bit is set). -/
theorem not_corner (x : BitVec 32) (d : Nat) (h0 : 0 < d) (hd : d < 2 ^ 31) : ¬IntOp.SDivCorner x (BitVec.ofNat 32 d) := by
  rintro (h | ⟨-, h⟩)
  · exact ofNat_ne d 0 hd (by omega) (by omega) h
  · have hm := msb_ofNat d hd
    rw [h] at hm
    exact absurd hm (by decide)

/-- So on any unit the remainder of `n` by a larger `d` is `n`. -/
theorem remsi_ofNat (u : ArithUnit) (n d : Nat) (hn : n < d) (hd : d < 2 ^ 31) :
    IntOp.remsi u (BitVec.ofNat 32 n) (BitVec.ofNat 32 d) = BitVec.ofNat 32 n := by
  unfold IntOp.remsi
  rw [if_neg (not_corner _ d (by omega) hd)]
  exact srem_ofNat n d hn hd

/-- Such a word is not below zero (signed) … -/
theorem cmpi_slt_zero (n : Nat) (h : n < 2 ^ 31) : IntOp.cmpi .slt (BitVec.ofNat 32 n) 0#32 = 0#1 := by
  have e : (BitVec.ofNat 32 n).slt 0#32 = false := by
    rw [BitVec.slt_eq_decide, toInt_ofNat n h]
    exact decide_eq_false (by show ¬((n : Int) < (0#32 : BitVec 32).toInt); rw [show (0#32 : BitVec 32).toInt = 0 from rfl]; omega)
  show BitVec.ofBool ((BitVec.ofNat 32 n).slt 0#32) = 0#1
  rw [e]; rfl

/-- … it is at least zero … -/
theorem cmpi_sge_zero (n : Nat) (h : n < 2 ^ 31) : IntOp.cmpi .sge (BitVec.ofNat 32 n) 0#32 = 1#1 := by
  have e : (0#32 : BitVec 32).sle (BitVec.ofNat 32 n) = true := by
    rw [BitVec.sle_eq_decide, toInt_ofNat n h]
    exact decide_eq_true (by rw [show (0#32 : BitVec 32).toInt = 0 from rfl]; omega)
  show BitVec.ofBool ((0#32 : BitVec 32).sle (BitVec.ofNat 32 n)) = 1#1
  rw [e]; rfl

/-- … and at most any such word of a number at least `n`. -/
theorem cmpi_sle (n k : Nat) (hnk : n ≤ k) (hk : k < 2 ^ 31) :
    IntOp.cmpi .sle (BitVec.ofNat 32 n) (BitVec.ofNat 32 k) = 1#1 := by
  have e : (BitVec.ofNat 32 n).sle (BitVec.ofNat 32 k) = true := by
    rw [BitVec.sle_eq_decide, toInt_ofNat n (by omega), toInt_ofNat k hk]
    exact decide_eq_true (by omega)
  show BitVec.ofBool ((BitVec.ofNat 32 n).sle (BitVec.ofNat 32 k)) = 1#1
  rw [e]; rfl

/-- Read signed and cut off below at zero, it is `n`. -/
theorem toInt_toNat_ofNat (n : Nat) (h : n < 2 ^ 31) : (BitVec.ofNat 32 n).toInt.toNat = n := by
  rw [toInt_ofNat n h]; exact Int.toNat_natCast n

end Cert.Lib.Words
-- ==== Proof.RefValue.lean ====
import proofs.«113682_g72318659330489_cont_9to1c4b_23_26_alg».proof.Proof.Gen.ReferenceIdeal.Read
import proofs.«113682_g72318659330489_cont_9to1c4b_23_26_alg».proof.Proof.Spec
import proofs.«113682_g72318659330489_cont_9to1c4b_23_26_alg».proof.Proof.LibWords
import Idealize.ShloMosaic.Lib.ValueIdx
import Idealize.ShloMosaic.Lib.Pipeline.Value
import Idealize.ShloMosaic.PureOps.Ideal.Laws

noncomputable section

namespace Cert.Gcn.Ref

open Idealize.ShloMosaic Idealize.ShloMosaic.ValueIdx Cert.ReferenceIdeal

/-- The comparison word of the identity matrix: row number (plus the zero word) against column number. -/
theorem eye_word (i j : Fin 32) :
    IntOp.cmpi .eq (IntOp.addi (BitVec.ofNat 32 i.val) 0#32) (BitVec.ofNat 32 j.val) = if i = j then 1#1 else 0#1 := by
  unfold IntOp.addi
  rw [BitVec.add_zero]
  show BitVec.ofBool (BitVec.ofNat 32 i.val == BitVec.ofNat 32 j.val) = _
  by_cases h : i = j
  · subst h
    rw [if_pos rfl, beq_self_eq_true]
    rfl
  · have hi : i.val < 2 ^ 31 := by have := i.isLt; omega
    have hj : j.val < 2 ^ 31 := by have := j.isLt; omega
    have hne : BitVec.ofNat 32 i.val ≠ BitVec.ofNat 32 j.val :=
      Cert.Lib.Words.ofNat_ne _ _ hi hj (fun e => h (Fin.ext e))
    rw [if_neg h, beq_false_of_ne hne]
    rfl

/-- Entry `(i, j)` of the identity matrix the program builds, as an extended real. -/
theorem eye_read (i j : Fin 32) :
    Read.val_main_v6 (F := Ideal) (ix2 i j) = (((if i = j then 1 else 0 : ℝ)) : EReal) := by
  rw [Read.val_main_v6_apply, Read.val_main_v5_apply, Read.val_main_v4_apply, Read.val_main_v1_apply,
    Read.val_main_v2_apply, Read.val_main_v3_apply, Read.val_main_c_apply]
  show FloatOps.uitofp (F := Ideal) .f32 (IntOp.cmpi .eq (IntOp.addi (BitVec.ofNat 32 i.val) 0#32) (BitVec.ofNat 32 j.val)) = _
  rw [eye_word]
  by_cases h : i = j
  · rw [if_pos h, if_pos h]
    show (((1#1 : BitVec 1).toNat : ℝ) : EReal) = ((1 : ℝ) : EReal)
    rw [show (1#1 : BitVec 1).toNat = 1 from rfl, Nat.cast_one]
  · rw [if_neg h, if_neg h]
    show (((0#1 : BitVec 1).toNat : ℝ) : EReal) = ((0 : ℝ) : EReal)
    rw [show (0#1 : BitVec 1).toNat = 0 from rfl, Nat.cast_zero]

/-- Entry `(i, j)` of sample `b`'s adjacency with the self loop added. -/
theorem ahat_read (x1 : IVec S4096x32x32 32) (b : Fin 4096) (i j : Fin 32) :
    Read.val_main_v9 (F := Ideal) x1 (ix3 b i j) = ((Cert.Gcn.ahatR (Cert.Gcn.adjOf x1 b) i j : ℝ) : EReal) := by
  have e : Read.idx_main_v7 (Read.idx_main_v8 (ix3 b i j)) = ix2 i j :=
    funext fun a => Fin.ext (by match a with | ⟨0, _⟩ => rfl | ⟨1, _⟩ => rfl)
  rw [Read.val_main_v9_apply, Read.val_main_v0_apply, Read.val_main_v8_apply, Read.val_main_v7_apply, e, eye_read]
  unfold Cert.Gcn.ahatR Cert.Gcn.adjOf
  rw [EReal.coe_add]
  rfl

/-- The degree of node `i` of sample `b`, as the program sums it. -/
theorem deg_read (x1 : IVec S4096x32x32 32) (b : Fin 4096) (i : Fin 32) :
    Cert.ReferenceIdeal.Read.val_main_v10 (F := Ideal) x1 (ix2 b i) = ((Cert.Gcn.degR (Cert.Gcn.adjOf x1 b) i : ℝ) : EReal) := by
  rw [Read.val_main_v10_apply, Read.val_main_cst_apply, Ideal.ofBits_def, Ideal.ofBits_zero_f32, zero_add]
  unfold Cert.Gcn.degR
  rw [Cert.Gcn.coe_sum]
  refine Finset.sum_congr rfl fun k _ => ?_
  have e : Read.idx_main_v10 (ix2 b i) k = ix3 b i k :=
    funext fun a => Fin.ext (by match a with | ⟨0, _⟩ => rfl | ⟨1, _⟩ => rfl | ⟨2, _⟩ => rfl)
  rw [e]
  exact ahat_read x1 b i k

/-- The inverse square root of the degree of node `i` of sample `b`. -/
theorem rs_read (x1 : IVec S4096x32x32 32) (b : Fin 4096) (i : Fin 32) :
    Read.val_main_v11 (F := Ideal) x1 (ix2 b i) = Cert.Gcn.rs (Cert.Gcn.adjOf x1 b) i := by
  rw [Read.val_main_v11_apply, Ideal.hostUnary_rsqrt_def, deg_read]
  rfl

/-- Entry `(i, j)` of the symmetrically normalised matrix: the entry times the row's factor times the column's. -/
theorem norm_read (x1 : IVec S4096x32x32 32) (b : Fin 4096) (i j : Fin 32) :
    Read.val_main_v17 (F := Ideal) x1 (ix3 b i j)
      = ((Cert.Gcn.ahatR (Cert.Gcn.adjOf x1 b) i j : ℝ) : EReal) * Cert.Gcn.rs (Cert.Gcn.adjOf x1 b) i
          * Cert.Gcn.rs (Cert.Gcn.adjOf x1 b) j := by
  have er : Read.idx_main_v12 (Read.idx_main_v13 (ix3 b i j)) = ix2 b i :=
    funext fun a => Fin.ext (by match a with | ⟨0, _⟩ => rfl | ⟨1, _⟩ => rfl)
  have ec : Read.idx_main_v15 (Read.idx_main_v16 (ix3 b i j)) = ix2 b j :=
    funext fun a => Fin.ext (by match a with | ⟨0, _⟩ => rfl | ⟨1, _⟩ => rfl)
  rw [Read.val_main_v17_apply, Read.val_main_v14_apply, Read.val_main_v13_apply, Read.val_main_v12_apply, er,
    Read.val_main_v16_apply, Read.val_main_v15_apply, ec, rs_read, rs_read, ahat_read, Ideal.mulf_def, Ideal.mulf_def]

/-- Node `j`'s features times the weights, at output feature `o`. -/
theorem xw_read (x0 : FVec Ideal S4096x32x128 .f32) (x2 : FVec Ideal S128x16 .f32) (b : Fin 4096) (j : Fin 32) (o : Fin 16) :
    Read.val_main_v18 (F := Ideal) x0 x2 (ix3 b j o)
      = Cert.Gcn.xw (Cert.Gcn.featOf x0 b) (Cert.Gcn.matOf x2) j o := by
  rw [Read.val_main_v18_apply]
  unfold Cert.Gcn.xw Cert.Gcn.featOf Cert.Gcn.matOf
  refine Finset.sum_congr rfl fun d _ => ?_
  have el : Read.lidx_main_v18 (ix3 b j o) d = ix3 b j d :=
    funext fun a => Fin.ext (by match a with | ⟨0, _⟩ => rfl | ⟨1, _⟩ => rfl | ⟨2, _⟩ => rfl)
  have er : Read.ridx_main_v18 (ix3 b j o) d = ix2 d o :=
    funext fun a => Fin.ext (by match a with | ⟨0, _⟩ => rfl | ⟨1, _⟩ => rfl)
  rw [el, er]

/-- The layer's value at sample `b`, node `i`, feature `o`, before the result is laid out in rows. -/
theorem out_read (x0 : FVec Ideal S4096x32x128 .f32) (x1 : IVec S4096x32x32 32) (x2 : FVec Ideal S128x16 .f32)
    (x3 : FVec Ideal S16 .f32) (b : Fin 4096) (i : Fin 32) (o : Fin 16) :
    Read.val_main_v22 (F := Ideal) x0 x1 x2 x3 (ix3 b i o)
      = Cert.Gcn.outR (Cert.Gcn.adjOf x1 b) (Cert.Gcn.featOf x0 b) (Cert.Gcn.matOf x2) (Cert.Gcn.vecOf x3) i o := by
  have eb : Read.idx_main_v20 (Read.idx_main_v21 (ix3 b i o)) = ix1 o :=
    funext fun a => Fin.ext (by match a with | ⟨0, _⟩ => rfl)
  rw [Read.val_main_v22_apply, Read.val_main_v19_apply, Read.val_main_v21_apply, Read.val_main_v20_apply, eb,
    Ideal.addf_def]
  unfold Cert.Gcn.outR Cert.Gcn.vecOf
  refine congrArg (· + x3 (ix1 o)) (Finset.sum_congr rfl fun k _ => ?_)
  have el : Read.lidx_main_v19 (ix3 b i o) k = ix3 b i k :=
    funext fun a => Fin.ext (by match a with | ⟨0, _⟩ => rfl | ⟨1, _⟩ => rfl | ⟨2, _⟩ => rfl)
  have er : Read.ridx_main_v19 (ix3 b i o) k = ix3 b k o :=
    funext fun a => Fin.ext (by match a with | ⟨0, _⟩ => rfl | ⟨1, _⟩ => rfl | ⟨2, _⟩ => rfl)
  rw [el, er, norm_read, xw_read]

/-- The reference program's result is the second arrangement of the layer, index by index: column `c` of row `b`
    holds node `c / 16`, feature `c % 16` of sample `b`. -/
theorem ref_eq_GR (x0 : FVec Ideal S4096x32x128 .f32) (x1 : IVec S4096x32x32 32) (x2 : FVec Ideal S128x16 .f32) (x3 : FVec Ideal S16 .f32) :
    Cert.ReferenceIdeal.Read.val_main_v23 (F := Ideal) x0 x1 x2 x3 = Cert.Gcn.GR x0 x1 x2 x3 := by
  funext y
  obtain ⟨p, q, rfl⟩ : ∃ (p : Fin 4096) (q : Fin 512), y = ix2 p q := ⟨y 0, y 1, eq_ix2 y⟩
  have hp : p.val < 4096 := p.isLt
  have hq : q.val < 512 := q.isLt
  have e : Read.idx_main_v23 (ix2 p q)
      = ix3 p (⟨q.val / 16, by omega⟩ : Fin 32) (⟨q.val % 16, Nat.mod_lt _ (by decide)⟩ : Fin 16) :=
    funext fun a => Fin.ext (by
      match a with
      | ⟨0, _⟩ => show (p.val * 512 + q.val) / 512 = p.val; omega
      | ⟨1, _⟩ => show (p.val * 512 + q.val) / 16 % 32 = q.val / 16; omega
      | ⟨2, _⟩ => show (p.val * 512 + q.val) % 16 = q.val % 16; omega)
  rw [Read.val_main_v23_apply, e, out_read]
  rfl

end Cert.Gcn.Ref

end
-- ==== Proof.Bridge.lean ====
/-
  The two arrangements of the layer are one array wherever the stated precondition holds.

  The precondition says every feature, weight and bias entry is finite and every node's degree — the row sum of
  the adjacency words with the self loop added — is positive. Then the inverse square roots of the degrees are
  positive reals, every product and sum in either arrangement is a real number, and moving the row's factor
  across the sum over the neighbours is distributivity in the reals.
-/
import proofs.«113682_g72318659330489_cont_9to1c4b_23_26_alg».proof.Proof.Algebra
import proofs.«113682_g72318659330489_cont_9to1c4b_23_26_alg».proof.Proof.PreDecode
import proofs.«113682_g72318659330489_cont_9to1c4b_23_26_alg».proof.Proof.RefValue

noncomputable section

namespace Cert.Gcn

open Idealize.ShloMosaic Idealize.ShloMosaic.ValueIdx

/-- Under the precondition, the array in the first arrangement (scale the columns, aggregate, scale the row) is
    the array in the second (normalise the matrix, then aggregate): at each result index the features and weights
    read are finite and the sample's degrees are positive, which is what the law between the two asks. -/
theorem GK_eq_GR (x0 : FVec Ideal Cert.Pre_finite_inputs.S4096x32x128 .f32) (x1 : IVec Cert.Pre_finite_inputs.S4096x32x32 32)
    (x2 : FVec Ideal Cert.Pre_finite_inputs.S128x16 .f32) (x3 : FVec Ideal Cert.Pre_finite_inputs.S16 .f32)
    (h : Cert.Pre_finite_inputs.fn (F := Ideal) x0 x1 x2 x3 = fun _ => 1#1) :
    GK x0 x1 x2 x3 = GR x0 x1 x2 x3 := by
  obtain ⟨h0, h2, -, hd⟩ := Cert.Gcn.Pre.pre_decode x0 x1 x2 x3 h
  funext y
  refine outK_eq_outR (adjOf x1 (row y)) (featOf x0 (row y)) (matOf x2) (vecOf x3)
    (fun j d => h0 (ix3 (row y) j d)) (fun d o => h2 (ix2 d o)) (fun i => ?_) (node y) (feat y)
  have hpos := hd (row y) i
  rw [Cert.Gcn.Ref.deg_read] at hpos
  exact EReal.coe_pos.mp hpos

end Cert.Gcn

end
-- ==== Proof.HostWords.lean ====
/-
  Floor division and the remainder of the divisor's sign, on small natural numbers written as 32-bit words.

  A program that wants `n / d` and `n % d` in the floor convention computes them from the truncating signed
  division and remainder: the quotient is lowered by one when the operands' signs differ and the remainder is not
  zero, and the divisor is added to the remainder when the remainder's sign differs from the divisor's and the
  remainder is not zero (a zero divisor first replaced by one). For a dividend that is not negative and a positive
  divisor none of the corrections fires — a zero dividend has sign 0, different from the divisor's sign 1, but then
  the remainder is zero — so both chains return the quotient and the remainder of the natural numbers.
-/
import proofs.«113682_g72318659330489_cont_9to1c4b_23_26_alg».proof.Proof.LibWords
import Idealize.ShloMosaic.PureOps

namespace Cert.Gcn.Words

open Idealize.ShloMosaic Cert.Lib.Words

/-- The sign of a word read signed: 0, -1 or 1. -/
def sgn (x : BitVec 32) : BitVec 32 := if x = 0 then 0 else if x.msb then -1 else 1

/-- The floor-division chain on one pair of words. -/
def fdiv (x d : BitVec 32) : BitVec 32 :=
  Scalar.select
    (IntOp.andi (IntOp.cmpi .ne (sgn x) (sgn d)) (IntOp.cmpi .ne (IntOp.remsi .host x d) 0#32))
    (IntOp.subi (IntOp.divsi .host x d) 1#32) (IntOp.divsi .host x d)

/-- The divisor the remainder chain uses: one in place of zero. -/
def safeDiv (d : BitVec 32) : BitVec 32 := Scalar.select (IntOp.cmpi .eq d 0#32) 1#32 d

/-- The remainder chain on one pair of words. -/
def fmod (x d : BitVec 32) : BitVec 32 :=
  Scalar.select
    (IntOp.andi
      (IntOp.cmpi .ne (IntOp.cmpi .slt (IntOp.remsi .host x (safeDiv d)) 0#32) (IntOp.cmpi .slt (safeDiv d) 0#32))
      (IntOp.cmpi .ne (IntOp.remsi .host x (safeDiv d)) 0#32))
    (IntOp.addi (IntOp.remsi .host x (safeDiv d)) (safeDiv d)) (IntOp.remsi .host x (safeDiv d))

/-! ## Comparisons of equal and of different words -/

theorem cmpi_ne_of_eq {w : Nat} (a b : BitVec w) (h : a = b) : IntOp.cmpi .ne a b = 0#1 := by
  subst h
  show BitVec.ofBool (a != a) = 0#1
  rw [bne_self_eq_false]; rfl

theorem cmpi_ne_of_ne {w : Nat} (a b : BitVec w) (h : a ≠ b) : IntOp.cmpi .ne a b = 1#1 := by
  show BitVec.ofBool (a != b) = 1#1
  rw [bne_iff_ne.mpr h]; rfl

theorem cmpi_eq_of_eq {w : Nat} (a b : BitVec w) (h : a = b) : IntOp.cmpi .eq a b = 1#1 := by
  subst h
  show BitVec.ofBool (a == a) = 1#1
  rw [beq_self_eq_true]; rfl

theorem cmpi_eq_of_ne {w : Nat} (a b : BitVec w) (h : a ≠ b) : IntOp.cmpi .eq a b = 0#1 := by
  show BitVec.ofBool (a == b) = 0#1
  rw [beq_eq_false_iff_ne.mpr h]; rfl

/-- Two words of numbers below 2^31 are equal exactly when the numbers are. -/
theorem ofNat_eq_iff (a b : Nat) (ha : a < 2 ^ 31) (hb : b < 2 ^ 31) : BitVec.ofNat 32 a = BitVec.ofNat 32 b ↔ a = b :=
  ⟨fun e => by rw [← toNat_ofNat a ha, ← toNat_ofNat b hb, e], fun e => by rw [e]⟩

/-! ## The truncating division and remainder of two numbers that are not negative -/

/-- The signed quotient of `n` by `d` is the quotient of the naturals: both sign bits are clear, so it is the unsigned
    quotient. -/
theorem sdiv_ofNat (n d : Nat) (hn : n < 2 ^ 31) (hd : d < 2 ^ 31) :
    (BitVec.ofNat 32 n).sdiv (BitVec.ofNat 32 d) = BitVec.ofNat 32 (n / d) := by
  have hq : n / d < 2 ^ 31 := lt_of_le_of_lt (Nat.div_le_self n d) hn
  rw [BitVec.sdiv_eq, msb_ofNat n hn, msb_ofNat d hd]
  show (BitVec.ofNat 32 n).udiv (BitVec.ofNat 32 d) = BitVec.ofNat 32 (n / d)
  rw [BitVec.udiv_eq]
  apply BitVec.eq_of_toNat_eq
  rw [BitVec.toNat_udiv, toNat_ofNat n hn, toNat_ofNat d hd, toNat_ofNat (n / d) hq]

/-- The signed remainder of `n` by a positive `d` is the remainder of the naturals. -/
theorem srem_ofNat_mod (n d : Nat) (hn : n < 2 ^ 31) (h0 : 0 < d) (hd : d < 2 ^ 31) :
    (BitVec.ofNat 32 n).srem (BitVec.ofNat 32 d) = BitVec.ofNat 32 (n % d) := by
  have hr : n % d < 2 ^ 31 := lt_trans (Nat.mod_lt n h0) hd
  apply BitVec.eq_of_toInt_eq
  rw [BitVec.toInt_srem, toInt_ofNat n hn, toInt_ofNat d hd, toInt_ofNat (n % d) hr]
  exact (Int.ofNat_tmod n d).symm

/-- On any unit, the quotient by a positive divisor … -/
theorem divsi_ofNat (u : ArithUnit) (n d : Nat) (hn : n < 2 ^ 31) (h0 : 0 < d) (hd : d < 2 ^ 31) :
    IntOp.divsi u (BitVec.ofNat 32 n) (BitVec.ofNat 32 d) = BitVec.ofNat 32 (n / d) := by
  unfold IntOp.divsi
  rw [if_neg (not_corner _ d h0 hd)]
  exact sdiv_ofNat n d hn hd

/-- … and the remainder. -/
theorem remsi_ofNat_mod (u : ArithUnit) (n d : Nat) (hn : n < 2 ^ 31) (h0 : 0 < d) (hd : d < 2 ^ 31) :
    IntOp.remsi u (BitVec.ofNat 32 n) (BitVec.ofNat 32 d) = BitVec.ofNat 32 (n % d) := by
  unfold IntOp.remsi
  rw [if_neg (not_corner _ d h0 hd)]
  exact srem_ofNat_mod n d hn h0 hd

/-! ## Signs -/

theorem sgn_zero : sgn (BitVec.ofNat 32 0) = 0 := by
  unfold sgn; rw [if_pos (show BitVec.ofNat 32 0 = (0 : BitVec 32) from rfl)]

/-- The sign of a positive number below 2^31 is one. -/
theorem sgn_pos (n : Nat) (h0 : 0 < n) (hn : n < 2 ^ 31) : sgn (BitVec.ofNat 32 n) = 1 := by
  have hne : BitVec.ofNat 32 n ≠ (0 : BitVec 32) := ofNat_ne n 0 hn (by omega) (by omega)
  unfold sgn
  rw [if_neg hne, msb_ofNat n hn]
  rfl

/-! ## The two chains -/

/-- The floor-division chain on `n` and a positive `d`, both below 2^31, gives `n / d`. -/
theorem fdiv_ofNat' (n d : Nat) (hn : n < 2 ^ 31) (h0 : 0 < d) (hd : d < 2 ^ 31) :
    fdiv (BitVec.ofNat 32 n) (BitVec.ofNat 32 d) = BitVec.ofNat 32 (n / d) := by
  unfold fdiv
  rw [divsi_ofNat .host n d hn h0 hd, remsi_ofNat_mod .host n d hn h0 hd]
  have hc : IntOp.andi (IntOp.cmpi .ne (sgn (BitVec.ofNat 32 n)) (sgn (BitVec.ofNat 32 d)))
      (IntOp.cmpi .ne (BitVec.ofNat 32 (n % d)) 0#32) = 0#1 := by
    rcases Nat.eq_zero_or_pos n with hz | hp
    · subst hz
      rw [Nat.zero_mod, cmpi_ne_of_eq (BitVec.ofNat 32 0) 0#32 rfl]
      unfold IntOp.andi
      exact BitVec.and_zero
    · rw [sgn_pos n hp hn, sgn_pos d h0 hd, cmpi_ne_of_eq (1 : BitVec 32) 1 rfl]
      unfold IntOp.andi
      exact BitVec.zero_and
  rw [hc]
  unfold Scalar.select
  rw [if_neg (by decide)]

/-- The remainder chain on `n` and a positive `d`, both below 2^31, gives `n % d`. -/
theorem fmod_ofNat' (n d : Nat) (hn : n < 2 ^ 31) (h0 : 0 < d) (hd : d < 2 ^ 31) :
    fmod (BitVec.ofNat 32 n) (BitVec.ofNat 32 d) = BitVec.ofNat 32 (n % d) := by
  have hr : n % d < 2 ^ 31 := lt_trans (Nat.mod_lt n h0) hd
  have hs : safeDiv (BitVec.ofNat 32 d) = BitVec.ofNat 32 d := by
    unfold safeDiv
    rw [cmpi_eq_of_ne _ _ (ofNat_ne d 0 hd (by omega) (by omega))]
    unfold Scalar.select
    rw [if_neg (by decide)]
  unfold fmod
  rw [hs, remsi_ofNat_mod .host n d hn h0 hd, cmpi_slt_zero (n % d) hr, cmpi_slt_zero d hd,
    cmpi_ne_of_eq (0#1) (0#1) rfl]
  have hc : IntOp.andi (0#1) (IntOp.cmpi .ne (BitVec.ofNat 32 (n % d)) 0#32) = 0#1 := by
    unfold IntOp.andi
    exact BitVec.zero_and
  rw [hc]
  unfold Scalar.select
  rw [if_neg (by decide)]

/-- For `n < 1024` and `d` 32 or 16. -/
theorem fdiv_ofNat (n d : Nat) (hn : n < 1024) (hd : d = 32 ∨ d = 16) :
    fdiv (BitVec.ofNat 32 n) (BitVec.ofNat 32 d) = BitVec.ofNat 32 (n / d) :=
  fdiv_ofNat' n d (by omega) (by omega) (by omega)

theorem fmod_ofNat (n d : Nat) (hn : n < 1024) (hd : d = 32 ∨ d = 16) :
    fmod (BitVec.ofNat 32 n) (BitVec.ofNat 32 d) = BitVec.ofNat 32 (n % d) :=
  fmod_ofNat' n d (by omega) (by omega) (by omega)

end Cert.Gcn.Words
-- ==== Proof.HostVec.lean ====
/-
  The floor-division and remainder chains on whole arrays, read at an index.

  A program computes `x // d` and `x % d` for an array `x` of words and a scalar `d` by the elementwise chains of
  truncating division, remainder, signs, comparisons and selects, the scalar and the constants 0 and 1 broadcast to the
  array's shape. Read at an index the chain is the word function of the element and the scalar; and the conversion of
  the one-bit answer of an equality to a number is 1 where the words are equal and 0 elsewhere.
-/
import proofs.«113682_g72318659330489_cont_9to1c4b_23_26_alg».proof.Proof.HostWords
import Idealize.ShloMosaic.Lib.Pipeline.Value
import Idealize.ShloMosaic.Lib.ValueIdx

noncomputable section

namespace Cert.Gcn.Words

open Idealize.ShloMosaic Idealize.ShloMosaic.ValueIdx

/-- The shape of a scalar. -/
abbrev S0 : Shape := ⟨0, ![]⟩

variable {s : Shape}

/-- A scalar broadcast to any shape reads the scalar at every index. -/
theorem bc0_apply {α : Type} (bc : S0.BroadcastsInDim s (![] : Fin 0 → Fin s.rank)) (y : S0.Idx → α) (i : s.Idx) :
    broadcastInDim s ![] bc y i = y ix0 :=
  broadcastInDim_apply _ bc y i ix0 (fun a => a.elim0)

/-- The floor-division chain of an array `x` by a scalar `d`. -/
def fdivV (bc : S0.BroadcastsInDim s (![] : Fin 0 → Fin s.rank)) (x : IVec s 32) (d : IVec S0 32) : IVec s 32 :=
  select
    (andi (cmpi .ne (signi x) (broadcastInDim s ![] bc (signi (id d))))
      (cmpi .ne (Host.remsi x (broadcastInDim s ![] bc (id d))) (broadcastInDim s ![] bc (constantI S0 32 0#32))))
    (subi (Host.divsi x (broadcastInDim s ![] bc (id d))) (broadcastInDim s ![] bc (constantI S0 32 1#32)))
    (Host.divsi x (broadcastInDim s ![] bc (id d)))

/-- The scalar the remainder chain divides by: one in place of zero. -/
def safeDivV (d : IVec S0 32) : IVec S0 32 :=
  select (cmpi .eq (id d) (constantI S0 32 0#32)) (constantI S0 32 1#32) (id d)

/-- The remainder chain of an array `x` by a scalar `d`. -/
def fmodV (bc : S0.BroadcastsInDim s (![] : Fin 0 → Fin s.rank)) (x : IVec s 32) (d : IVec S0 32) : IVec s 32 :=
  select
    (andi
      (cmpi .ne
        (cmpi .slt (Host.remsi x (broadcastInDim s ![] bc (safeDivV d))) (broadcastInDim s ![] bc (constantI S0 32 0#32)))
        (broadcastInDim s ![] bc (cmpi .slt (safeDivV d) (constantI S0 32 0#32))))
      (cmpi .ne (Host.remsi x (broadcastInDim s ![] bc (safeDivV d))) (broadcastInDim s ![] bc (constantI S0 32 0#32))))
    (addi (Host.remsi x (broadcastInDim s ![] bc (safeDivV d))) (broadcastInDim s ![] bc (safeDivV d)))
    (Host.remsi x (broadcastInDim s ![] bc (safeDivV d)))

/-- The floor-division chain at an index is the word chain of the element and the scalar. -/
theorem fdivV_apply (bc : S0.BroadcastsInDim s (![] : Fin 0 → Fin s.rank)) (x : IVec s 32) (d : IVec S0 32) (i : s.Idx) :
    fdivV bc x d i = fdiv (x i) (d ix0) := by
  simp only [fdivV, fdiv, sgn, select, andi, cmpi, signi, subi, Host.divsi, Host.remsi, bc0_apply, constantI, id]

/-- The remainder chain at an index is the word chain of the element and the scalar. -/
theorem fmodV_apply (bc : S0.BroadcastsInDim s (![] : Fin 0 → Fin s.rank)) (x : IVec s 32) (d : IVec S0 32) (i : s.Idx) :
    fmodV bc x d i = fmod (x i) (d ix0) := by
  simp only [fmodV, fmod, safeDivV, safeDiv, select, andi, cmpi, addi, Host.remsi, bc0_apply, constantI, id]

/-- The one-bit answer of an equality of words, converted to a number, is 1 where they are equal and 0 elsewhere. -/
theorem uitofp_cmpi_eq (φ : FTy) (a b : BitVec 32) :
    (FloatOps.uitofp (F := Ideal) φ (IntOp.cmpi .eq a b) : EReal) = if a = b then (1 : EReal) else 0 := by
  by_cases h : a = b
  · rw [cmpi_eq_of_eq a b h, if_pos h]
    show (((1#1 : BitVec 1).toNat : ℝ) : EReal) = 1
    rw [show (1#1 : BitVec 1).toNat = 1 from rfl, Nat.cast_one, EReal.coe_one]
  · rw [cmpi_eq_of_ne a b h, if_neg h]
    show (((0#1 : BitVec 1).toNat : ℝ) : EReal) = 0
    rw [show (0#1 : BitVec 1).toNat = 0 from rfl, Nat.cast_zero, EReal.coe_zero]

end Cert.Gcn.Words

end
-- ==== Proof.HostWinA.lean ====
/-
  One of the constant arrays of zeros and ones the program prepares for its kernel, read at an index.
-/
import proofs.«113682_g72318659330489_cont_9to1c4b_23_26_alg».proof.Proof.Gen.KernelIdeal.Frame
import proofs.«113682_g72318659330489_cont_9to1c4b_23_26_alg».proof.Proof.HostVec
import Idealize.ShloMosaic.Lib.ValueIdx
import Idealize.ShloMosaic.Lib.Pipeline.Value
import Idealize.ShloMosaic.Lib.StableHlo.Run
import Idealize.ShloMosaic.Lib.ValueLayout

noncomputable section
namespace Cert.Gcn.HostWin
open Idealize.ShloMosaic Idealize.ShloMosaic.ValueIdx Idealize.ShloMosaic.TcCoe Idealize.SL.Sem Cert.KernelIdeal Cert.KernelIdeal.Gen
open Idealize.ShloMosaic.StableHlo Cert.Gcn.Words
/-! ## The diagonal mask

  Before its kernel runs the program builds, from the numbers `0 … 1023` written as words, the row `[1, 1024]` that is one
  at column `q` exactly when `q / 32 = q % 32` (the diagonal of a 32 × 32 matrix laid out flat) and zero elsewhere. It is
  the conversion to a number of an equality of words, the words being the floor quotient and the remainder by 32 of the
  column number; on numbers below 1024 those word chains are the quotient and remainder of the naturals, and two words
  of numbers below `2^31` are equal exactly when the numbers are. -/

variable (m : (ℓ : Loc nD τ sig) → Buf (Elt Ideal) ℓ) (c : Dev nD)

/-- The flat diagonal mask as a term: the numbers, their floor quotient and remainder by 32 compared, converted, and the
    row of 1024 entries seen as a `1 × 1024` matrix. -/
theorem v7_eq : (V m c main_v7 : S1x1024.Idx → EReal)
    = shapeCast S1x1024 (uitofp (F := Ideal) .bf16 (cmpi .eq
        (fdivV bcast_S_S1024 (iotaInDim S1024 32 0) (constantI S_ 32 32#32))
        (fmodV bcast_S_S1024 (iotaInDim S1024 32 0) (constantI S_ 32 32#32)))) shapeCasts_S1024_S1x1024 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

/-- Two words of numbers below `2^31` compared and converted: 1 where the numbers are equal, 0 elsewhere. -/
theorem uitofp_eq_ofNat (a b : Nat) (ha : a < 2 ^ 31) (hb : b < 2 ^ 31) :
    (FloatOps.uitofp (F := Ideal) .bf16 (IntOp.cmpi .eq (BitVec.ofNat 32 a) (BitVec.ofNat 32 b)) : EReal)
      = if a = b then (1 : EReal) else 0 := by
  rw [uitofp_cmpi_eq]
  by_cases h : a = b
  · rw [if_pos h, if_pos (by rw [h])]
  · rw [if_neg h, if_neg (fun e => h ((ofNat_eq_iff a b ha hb).mp e))]

theorem diag_apply (q : Fin 1024) :
    (V m c main_v7 : S1x1024.Idx → EReal) (ix2 (0 : Fin 1) q) = if q.val / 32 = q.val % 32 then (1 : EReal) else 0 := by
  have hq : q.val < 1024 := q.isLt
  refine (congrFun (v7_eq m c) (ix2 (0 : Fin 1) q)).trans ?_
  refine (shapeCast_apply _ shapeCasts_S1024_S1x1024 (ix2 (0 : Fin 1) q) (ix1 q) (by
    rw [Shape.rowMajor_val_two, Shape.rowMajor_val_one]; show q.val = 0 * 1024 + q.val; omega)).trans ?_
  show FloatOps.uitofp (F := Ideal) .bf16 (IntOp.cmpi .eq
      (fdivV bcast_S_S1024 (iotaInDim S1024 32 0) (constantI S_ 32 32#32) (ix1 q))
      (fmodV bcast_S_S1024 (iotaInDim S1024 32 0) (constantI S_ 32 32#32) (ix1 q))) = _
  rw [fdivV_apply, fmodV_apply]
  show FloatOps.uitofp (F := Ideal) .bf16 (IntOp.cmpi .eq
      (fdiv (BitVec.ofNat 32 q.val) (BitVec.ofNat 32 32)) (fmod (BitVec.ofNat 32 q.val) (BitVec.ofNat 32 32))) = _
  rw [fdiv_ofNat q.val 32 hq (Or.inl rfl), fmod_ofNat q.val 32 hq (Or.inl rfl)]
  exact uitofp_eq_ofNat _ _ (by omega) (by omega)

end Cert.Gcn.HostWin
end
-- ==== Proof.HostWinK.lean ====
import proofs.«113682_g72318659330489_cont_9to1c4b_23_26_alg».proof.Proof.Gen.KernelIdeal.Frame
import proofs.«113682_g72318659330489_cont_9to1c4b_23_26_alg».proof.Proof.HostVec
import Idealize.ShloMosaic.Lib.ValueIdx
import Idealize.ShloMosaic.Lib.Pipeline.Value
import Idealize.ShloMosaic.Lib.StableHlo.Run
import Idealize.ShloMosaic.Lib.ValueLayout

noncomputable section
namespace Cert.Gcn.HostWin
open Idealize.ShloMosaic Idealize.ShloMosaic.ValueIdx Idealize.ShloMosaic.TcCoe Idealize.SL.Sem Cert.KernelIdeal Cert.KernelIdeal.Gen
open Idealize.ShloMosaic.StableHlo Cert.Gcn.Words

/-! ## The block-row mask

  From the numbers `0 … 1023` written as words, set as a column, and the numbers `0 … 31`, set as a row, the host builds
  the `1024 × 32` matrix of zeros and ones that is one at `(q, i)` exactly when `q / 32 = i`: the flat position `q` of a
  32 × 32 matrix lies in its row `i`. The entry is the conversion to a number of an equality of two words, the floor
  quotient by 32 of the column's word and the row's word; on numbers below 1024 the floor-quotient chain is the quotient
  of the naturals, and two words of numbers below `2^31` are equal exactly when the numbers are. -/

variable (m : (ℓ : Loc nD τ sig) → Buf (Elt Ideal) ℓ) (c : Dev nD)

/-- The mask as a term: the column of numbers, its floor quotient by 32, spread over 32 columns; the row of numbers spread
    over 1024 rows; the two compared and the answer converted. -/
theorem v14_eq : (V m c main_v14 : S1024x32.Idx → EReal)
    = uitofp (F := Ideal) .bf16 (cmpi .eq
        (broadcastInDim S1024x32 ![0, 1] bcast_S1024x1_S1024x32_0_1
          (fdivV bcast_S_S1024x1 (broadcastInDim S1024x1 ![0] bcast_S1024_S1024x1_0 (iotaInDim S1024 32 0))
            (constantI S_ 32 32#32)))
        (broadcastInDim S1024x32 ![0, 1] bcast_S1x32_S1024x32_0_1
          (broadcastInDim S1x32 ![1] bcast_S32_S1x32_1 (iotaInDim S32 32 0)))) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

/-- The floor quotient's column, spread over the 32 columns, at `(q, i)`: the word of `q / 32`. -/
theorem kmat_quot_apply (q : Fin 1024) (i : Fin 32) :
    broadcastInDim S1024x32 ![0, 1] bcast_S1024x1_S1024x32_0_1
        (fdivV bcast_S_S1024x1 (broadcastInDim S1024x1 ![0] bcast_S1024_S1024x1_0 (iotaInDim S1024 32 0))
          (constantI S_ 32 32#32)) (ix2 q i)
      = BitVec.ofNat 32 (q.val / 32) := by
  refine (broadcastInDim_apply _ bcast_S1024x1_S1024x32_0_1 _ (ix2 q i) (ix2 q (0 : Fin 1)) (fun a => match a with
    | ⟨0, _⟩ => by show q.val = if (1024 : Nat) = 1 then 0 else q.val; rw [if_neg (by decide)]
    | ⟨1, _⟩ => by show (0 : Nat) = if (1 : Nat) = 1 then 0 else i.val; rw [if_pos rfl])).trans ?_
  rw [fdivV_apply]
  have hx : broadcastInDim S1024x1 ![0] bcast_S1024_S1024x1_0 (iotaInDim S1024 32 0) (ix2 q (0 : Fin 1))
      = BitVec.ofNat 32 q.val :=
    broadcastInDim_apply _ bcast_S1024_S1024x1_0 (iotaInDim S1024 32 0) (ix2 q (0 : Fin 1)) (ix1 q) (fun a => match a with
      | ⟨0, _⟩ => by show q.val = if (1024 : Nat) = 1 then 0 else q.val; rw [if_neg (by decide)])
  rw [hx]
  exact fdiv_ofNat q.val 32 q.isLt (Or.inl rfl)

/-- The row of numbers, spread over the 1024 rows, at `(q, i)`: the word of `i`. -/
theorem kmat_row_apply (q : Fin 1024) (i : Fin 32) :
    broadcastInDim S1024x32 ![0, 1] bcast_S1x32_S1024x32_0_1
        (broadcastInDim S1x32 ![1] bcast_S32_S1x32_1 (iotaInDim S32 32 0)) (ix2 q i)
      = BitVec.ofNat 32 i.val := by
  refine (broadcastInDim_apply _ bcast_S1x32_S1024x32_0_1 _ (ix2 q i) (ix2 (0 : Fin 1) i) (fun a => match a with
    | ⟨0, _⟩ => by show (0 : Nat) = if (1 : Nat) = 1 then 0 else q.val; rw [if_pos rfl]
    | ⟨1, _⟩ => by show i.val = if (32 : Nat) = 1 then 0 else i.val; rw [if_neg (by decide)])).trans ?_
  exact broadcastInDim_apply _ bcast_S32_S1x32_1 (iotaInDim S32 32 0) (ix2 (0 : Fin 1) i) (ix1 i) (fun a => match a with
    | ⟨0, _⟩ => by show i.val = if (32 : Nat) = 1 then 0 else i.val; rw [if_neg (by decide)])

theorem kmat_apply (q : Fin 1024) (i : Fin 32) :
    (V m c main_v14 : S1024x32.Idx → EReal) (ix2 q i) = if q.val / 32 = i.val then (1 : EReal) else 0 := by
  have hq : q.val < 1024 := q.isLt
  have hi : i.val < 32 := i.isLt
  refine (congrFun (v14_eq m c) (ix2 q i)).trans ?_
  show FloatOps.uitofp (F := Ideal) .bf16 (IntOp.cmpi .eq
      (broadcastInDim S1024x32 ![0, 1] bcast_S1024x1_S1024x32_0_1
        (fdivV bcast_S_S1024x1 (broadcastInDim S1024x1 ![0] bcast_S1024_S1024x1_0 (iotaInDim S1024 32 0))
          (constantI S_ 32 32#32)) (ix2 q i))
      (broadcastInDim S1024x32 ![0, 1] bcast_S1x32_S1024x32_0_1
        (broadcastInDim S1x32 ![1] bcast_S32_S1x32_1 (iotaInDim S32 32 0)) (ix2 q i))) = _
  rw [kmat_quot_apply, kmat_row_apply, uitofp_cmpi_eq]
  by_cases h : q.val / 32 = i.val
  · rw [if_pos h, if_pos (by rw [h])]
  · rw [if_neg h, if_neg (fun e => h ((ofNat_eq_iff _ _ (by omega) (by omega)).mp e))]

end Cert.Gcn.HostWin
end
-- ==== Proof.HostWinB.lean ====
/-
  Three of the arrays the host builds before the region, read at an index.

  Before its one region the program reshapes the adjacency argument from [4096, 32, 32] to [4096, 1024], so that
  column q of a row holds the entry (q / 32, q % 32) of that sample's matrix; it tiles the bias 32 times into a row
  of 512 entries, so that column q holds bias entry q % 16; and it builds from the numbers 0 … 31 and 0 … 1023 the
  matrix with a one at (k, q) exactly where k is the remainder of q by 32, and zeros elsewhere. Each array's contents
  are a composition of layout operations (and, for the last, of the integer remainder chain, an equality test and a
  conversion to a number) applied to the arguments; each theorem reads that composition at one index.
-/
import proofs.«113682_g72318659330489_cont_9to1c4b_23_26_alg».proof.Proof.Gen.KernelIdeal.Frame
import proofs.«113682_g72318659330489_cont_9to1c4b_23_26_alg».proof.Proof.LibWords
import proofs.«113682_g72318659330489_cont_9to1c4b_23_26_alg».proof.Proof.HostVec
import Idealize.ShloMosaic.Lib.ValueIdx
import Idealize.ShloMosaic.Lib.Pipeline.Value
import Idealize.ShloMosaic.Lib.StableHlo.Run
import Idealize.ShloMosaic.Lib.ValueLayout

noncomputable section

namespace Cert.Gcn.HostWin

open Idealize.ShloMosaic Idealize.ShloMosaic.ValueIdx Idealize.ShloMosaic.TcCoe Idealize.SL.Sem Cert.KernelIdeal Cert.KernelIdeal.Gen
open Idealize.ShloMosaic.StableHlo

variable (m : (ℓ : Loc nD τ sig) → Buf (Elt Ideal) ℓ) (c : Dev nD)

/-! ## The adjacency, one row per sample -/

/-- The adjacency as the region finds it: the argument, reshaped. -/
theorem adjflat_v33_eq : (V m c main_v33 : S4096x1024.Idx → BitVec 32)
    = shapeCast S4096x1024 (m ((c : Thread nD τ).loc main_arg1) : S4096x32x32.Idx → BitVec 32) shapeCasts_S4096x32x32_S4096x1024 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results; rfl

theorem adjflat_apply (b : Fin 4096) (q : Fin 1024) :
    (V m c main_v33 : S4096x1024.Idx → BitVec 32) (ix2 b q)
      = (m ((c : Thread nD τ).loc main_arg1) : S4096x32x32.Idx → BitVec 32)
          (ix3 b (⟨q.val / 32, by have := q.isLt; omega⟩ : Fin 32) (⟨q.val % 32, Nat.mod_lt _ (by decide)⟩ : Fin 32)) := by
  refine (congrFun (adjflat_v33_eq m c) _).trans ?_
  refine shapeCast_apply _ shapeCasts_S4096x32x32_S4096x1024 (ix2 b q) _ ?_
  rw [Shape.rowMajor_val_three, Shape.rowMajor_val_two]
  have hb : b.val < 4096 := b.isLt
  have hq : q.val < 1024 := q.isLt
  show (b.val * 32 + q.val / 32) * 32 + q.val % 32 = b.val * 1024 + q.val
  omega

/-! ## The bias, tiled -/

/-- The tiled bias as the region finds it: the bias argument reshaped to a row, repeated on 32 rows, flattened. -/
theorem bflat_v32_eq : (V m c main_v32 : S1x512.Idx → EReal)
    = shapeCast S1x512 (shapeCast S512 (broadcastInDim S32x16 ![0, 1] bcast_S1x16_S32x16_0_1
        (shapeCast S1x16 (m ((c : Thread nD τ).loc main_arg3) : S16.Idx → EReal) shapeCasts_S16_S1x16)) shapeCasts_S32x16_S512) shapeCasts_S512_S1x512 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results; rfl

theorem bflat_apply (q : Fin 512) :
    (V m c main_v32 : S1x512.Idx → EReal) (ix2 (0 : Fin 1) q)
      = (m ((c : Thread nD τ).loc main_arg3) : S16.Idx → EReal) (ix1 (⟨q.val % 16, Nat.mod_lt _ (by decide)⟩ : Fin 16)) := by
  have hq : q.val < 512 := q.isLt
  refine (congrFun (bflat_v32_eq m c) _).trans ?_
  refine (shapeCast_apply _ shapeCasts_S512_S1x512 (ix2 (0 : Fin 1) q) (ix1 q) ?_).trans ?_
  · rw [Shape.rowMajor_val_one, Shape.rowMajor_val_two]
    show q.val = 0 * 512 + q.val
    omega
  refine (shapeCast_apply _ shapeCasts_S32x16_S512 (ix1 q)
    (ix2 (⟨q.val / 16, by omega⟩ : Fin 32) (⟨q.val % 16, Nat.mod_lt _ (by decide)⟩ : Fin 16)) ?_).trans ?_
  · rw [Shape.rowMajor_val_one, Shape.rowMajor_val_two]
    show q.val / 16 * 16 + q.val % 16 = q.val
    omega
  refine (broadcastInDim_apply _ bcast_S1x16_S32x16_0_1 _ _
    (ix2 (0 : Fin 1) (⟨q.val % 16, Nat.mod_lt _ (by decide)⟩ : Fin 16)) (fun a => match a with
      | ⟨0, _⟩ => by show 0 = if (1 : Nat) = 1 then 0 else q.val / 16; rw [if_pos rfl]
      | ⟨1, _⟩ => by show q.val % 16 = if (16 : Nat) = 1 then 0 else q.val % 16; rw [if_neg (by decide)])).trans ?_
  refine shapeCast_apply _ shapeCasts_S16_S1x16 _ (ix1 (⟨q.val % 16, Nat.mod_lt _ (by decide)⟩ : Fin 16)) ?_
  rw [Shape.rowMajor_val_one, Shape.rowMajor_val_two]
  show q.val % 16 = 0 * 16 + q.val % 16
  omega

/-! ## The matrix that selects a column's node -/

/-- The matrix as the region finds it: the row numbers 0 … 31 spread along the rows, compared for equality with the
    remainders by 32 of the column numbers 0 … 1023 spread along the columns, the answer as a number. -/
theorem mj_v21_eq : (V m c main_v21 : S32x1024.Idx → EReal)
    = (uitofp (F := Ideal) .bf16 (cmpi .eq
        (broadcastInDim S32x1024 ![0, 1] bcast_S32x1_S32x1024_0_1 (broadcastInDim S32x1 ![0] bcast_S32_S32x1_0 (iotaInDim S32 32 0)))
        (broadcastInDim S32x1024 ![0, 1] bcast_S1x1024_S32x1024_0_1
          (Cert.Gcn.Words.fmodV bcast_S_S1x1024 (broadcastInDim S1x1024 ![1] bcast_S1024_S1x1024_1 (iotaInDim S1024 32 0))
            (constantI S_ 32 32#32)))) : S32x1024.Idx → EReal) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

/-- Row k of the spread row numbers holds the word of k. -/
theorem mj_rowNo_apply (k : Fin 32) (q : Fin 1024) :
    (broadcastInDim S32x1024 ![0, 1] bcast_S32x1_S32x1024_0_1
        (broadcastInDim S32x1 ![0] bcast_S32_S32x1_0 (iotaInDim S32 32 0)) : S32x1024.Idx → BitVec 32) (ix2 k q)
      = BitVec.ofNat 32 k.val := by
  refine (broadcastInDim_apply _ bcast_S32x1_S32x1024_0_1 _ (ix2 k q) (ix2 k (0 : Fin 1)) (fun a => match a with
    | ⟨0, _⟩ => by show k.val = if (32 : Nat) = 1 then 0 else k.val; rw [if_neg (by decide)]
    | ⟨1, _⟩ => by show 0 = if (1 : Nat) = 1 then 0 else q.val; rw [if_pos rfl])).trans ?_
  refine (broadcastInDim_apply _ bcast_S32_S32x1_0 _ (ix2 k (0 : Fin 1)) (ix1 k) (fun a => match a with
    | ⟨0, _⟩ => by show k.val = if (32 : Nat) = 1 then 0 else k.val; rw [if_neg (by decide)])).trans ?_
  rfl

/-- Column q of the column numbers, as a row, holds the word of q. -/
theorem mj_colNo_apply (q : Fin 1024) :
    (broadcastInDim S1x1024 ![1] bcast_S1024_S1x1024_1 (iotaInDim S1024 32 0) : S1x1024.Idx → BitVec 32) (ix2 (0 : Fin 1) q)
      = BitVec.ofNat 32 q.val := by
  refine (broadcastInDim_apply _ bcast_S1024_S1x1024_1 _ (ix2 (0 : Fin 1) q) (ix1 q) (fun a => match a with
    | ⟨0, _⟩ => by show q.val = if (1024 : Nat) = 1 then 0 else q.val; rw [if_neg (by decide)])).trans ?_
  rfl

/-- Column q of the spread remainders holds the word of q % 32, on every row. -/
theorem mj_colRem_apply (k : Fin 32) (q : Fin 1024) :
    (broadcastInDim S32x1024 ![0, 1] bcast_S1x1024_S32x1024_0_1
        (Cert.Gcn.Words.fmodV bcast_S_S1x1024 (broadcastInDim S1x1024 ![1] bcast_S1024_S1x1024_1 (iotaInDim S1024 32 0))
          (constantI S_ 32 32#32)) : S32x1024.Idx → BitVec 32) (ix2 k q)
      = BitVec.ofNat 32 (q.val % 32) := by
  refine (broadcastInDim_apply _ bcast_S1x1024_S32x1024_0_1 _ (ix2 k q) (ix2 (0 : Fin 1) q) (fun a => match a with
    | ⟨0, _⟩ => by show 0 = if (1 : Nat) = 1 then 0 else k.val; rw [if_pos rfl]
    | ⟨1, _⟩ => by show q.val = if (1024 : Nat) = 1 then 0 else q.val; rw [if_neg (by decide)])).trans ?_
  refine (Cert.Gcn.Words.fmodV_apply bcast_S_S1x1024 _ _ _).trans ?_
  rw [mj_colNo_apply q]
  exact Cert.Gcn.Words.fmod_ofNat q.val 32 q.isLt (Or.inl rfl)

theorem mj_apply (k : Fin 32) (q : Fin 1024) :
    (V m c main_v21 : S32x1024.Idx → EReal) (ix2 k q) = if k.val = q.val % 32 then (1 : EReal) else 0 := by
  have hk : k.val < 32 := k.isLt
  have hq : q.val < 1024 := q.isLt
  refine (congrFun (mj_v21_eq m c) _).trans ?_
  refine (congrArg (fun w => FloatOps.uitofp (F := Ideal) .bf16 w)
    (congrArg₂ (IntOp.cmpi .eq) (mj_rowNo_apply k q) (mj_colRem_apply k q))).trans ?_
  refine (Cert.Gcn.Words.uitofp_cmpi_eq .bf16 _ _).trans ?_
  by_cases h : k.val = q.val % 32
  · rw [if_pos h, if_pos (by rw [h])]
  · rw [if_neg h, if_neg (fun e => h ((Cert.Gcn.Words.ofNat_eq_iff _ _ (by omega) (by omega)).mp e))]

end Cert.Gcn.HostWin

end
-- ==== Proof.HostWinMo.lean ====
import proofs.«113682_g72318659330489_cont_9to1c4b_23_26_alg».proof.Proof.Gen.KernelIdeal.Frame
import proofs.«113682_g72318659330489_cont_9to1c4b_23_26_alg».proof.Proof.HostVec
import Idealize.ShloMosaic.Lib.ValueIdx
import Idealize.ShloMosaic.Lib.Pipeline.Value
import Idealize.ShloMosaic.Lib.StableHlo.Run
import Idealize.ShloMosaic.Lib.ValueLayout

noncomputable section

namespace Cert.Gcn.HostWin

open Idealize.ShloMosaic Idealize.ShloMosaic.ValueIdx Idealize.ShloMosaic.TcCoe Idealize.SL.Sem Cert.KernelIdeal Cert.KernelIdeal.Gen
open Idealize.ShloMosaic.StableHlo Cert.Gcn.Words

/-! ## The node-of-column mask

  The host builds, from the numbers `0 … 31` written as words down a column and the numbers `0 … 511` written as
  words along a row, the matrix `[32, 512]` of zeros and ones that is one at `(k, q)` exactly when `k = q / 16`
  (column `q` of the flat result belongs to node `k`). It is the conversion to a number of an equality of words:
  the row number against the floor quotient by 16 of the column number. On numbers below 1024 the floor-division
  chain of words is the quotient of the naturals, and two words of numbers below `2^31` are equal exactly when
  the numbers are. -/

variable (m : (ℓ : Loc nD τ sig) → Buf (Elt Ideal) ℓ) (c : Dev nD)

/-- A column `[32, 1]` broadcast to `[32, 512]` reads, at `(k, q)`, the column at row `k`. -/
private theorem bc_col_apply {α : Type} (x : S32x1.Idx → α) (k : Fin 32) (q : Fin 512) :
    broadcastInDim S32x512 ![0, 1] bcast_S32x1_S32x512_0_1 x (ix2 k q) = x (ix2 k (0 : Fin 1)) :=
  broadcastInDim_apply _ bcast_S32x1_S32x512_0_1 x (ix2 k q) (ix2 k (0 : Fin 1)) (fun a => match a with
    | ⟨0, _⟩ => by show k.val = if (32 : Nat) = 1 then 0 else k.val; rw [if_neg (by decide)]
    | ⟨1, _⟩ => by show (0 : Nat) = if (1 : Nat) = 1 then 0 else q.val; rw [if_pos rfl])

/-- A vector `[32]` seen as a column `[32, 1]` reads, at `(k, 0)`, the vector at `k`. -/
private theorem bc_vec_col_apply {α : Type} (x : S32.Idx → α) (k : Fin 32) :
    broadcastInDim S32x1 ![0] bcast_S32_S32x1_0 x (ix2 k (0 : Fin 1)) = x (ix1 k) :=
  broadcastInDim_apply _ bcast_S32_S32x1_0 x (ix2 k (0 : Fin 1)) (ix1 k) (fun a => match a with
    | ⟨0, _⟩ => by show k.val = if (32 : Nat) = 1 then 0 else k.val; rw [if_neg (by decide)])

/-- A row `[1, 512]` broadcast to `[32, 512]` reads, at `(k, q)`, the row at column `q`. -/
private theorem bc_row_apply {α : Type} (x : S1x512.Idx → α) (k : Fin 32) (q : Fin 512) :
    broadcastInDim S32x512 ![0, 1] bcast_S1x512_S32x512_0_1 x (ix2 k q) = x (ix2 (0 : Fin 1) q) :=
  broadcastInDim_apply _ bcast_S1x512_S32x512_0_1 x (ix2 k q) (ix2 (0 : Fin 1) q) (fun a => match a with
    | ⟨0, _⟩ => by show (0 : Nat) = if (1 : Nat) = 1 then 0 else k.val; rw [if_pos rfl]
    | ⟨1, _⟩ => by show q.val = if (512 : Nat) = 1 then 0 else q.val; rw [if_neg (by decide)])

/-- A vector `[512]` seen as a row `[1, 512]` reads, at `(0, q)`, the vector at `q`. -/
private theorem bc_vec_row_apply {α : Type} (x : S512.Idx → α) (q : Fin 512) :
    broadcastInDim S1x512 ![1] bcast_S512_S1x512_1 x (ix2 (0 : Fin 1) q) = x (ix1 q) :=
  broadcastInDim_apply _ bcast_S512_S1x512_1 x (ix2 (0 : Fin 1) q) (ix1 q) (fun a => match a with
    | ⟨0, _⟩ => by show q.val = if (512 : Nat) = 1 then 0 else q.val; rw [if_neg (by decide)])

/-- The mask as a term: the row numbers down a column, the floor quotient by 16 of the column numbers along a row,
    both spread over the matrix, compared and converted. -/
private theorem v28_eq : (V m c main_v28 : S32x512.Idx → EReal)
    = uitofp (F := Ideal) .bf16 (cmpi .eq
        (broadcastInDim S32x512 ![0, 1] bcast_S32x1_S32x512_0_1
          (broadcastInDim S32x1 ![0] bcast_S32_S32x1_0 (iotaInDim S32 32 0)))
        (broadcastInDim S32x512 ![0, 1] bcast_S1x512_S32x512_0_1
          (fdivV bcast_S_S1x512 (broadcastInDim S1x512 ![1] bcast_S512_S1x512_1 (iotaInDim S512 32 0))
            (constantI S_ 32 16#32)))) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

/-- Two words of numbers below `2^31` compared and converted: 1 where the numbers are equal, 0 elsewhere. -/
private theorem uitofp_eq_ofNat (a b : Nat) (ha : a < 2 ^ 31) (hb : b < 2 ^ 31) :
    (FloatOps.uitofp (F := Ideal) .bf16 (IntOp.cmpi .eq (BitVec.ofNat 32 a) (BitVec.ofNat 32 b)) : EReal)
      = if a = b then (1 : EReal) else 0 := by
  rw [uitofp_cmpi_eq]
  by_cases h : a = b
  · rw [if_pos h, if_pos (by rw [h])]
  · rw [if_neg h, if_neg (fun e => h ((ofNat_eq_iff a b ha hb).mp e))]

/-- The mask at `(k, q)` is one exactly when `k = q / 16`. -/
theorem mo_apply (k : Fin 32) (q : Fin 512) :
    (V m c main_v28 : S32x512.Idx → EReal) (ix2 k q) = if k.val = q.val / 16 then (1 : EReal) else 0 := by
  have hq : q.val < 512 := q.isLt
  have hk : k.val < 32 := k.isLt
  refine (congrFun (v28_eq m c) (ix2 k q)).trans ?_
  show FloatOps.uitofp (F := Ideal) .bf16 (IntOp.cmpi .eq
      (broadcastInDim S32x512 ![0, 1] bcast_S32x1_S32x512_0_1
        (broadcastInDim S32x1 ![0] bcast_S32_S32x1_0 (iotaInDim S32 32 0)) (ix2 k q))
      (broadcastInDim S32x512 ![0, 1] bcast_S1x512_S32x512_0_1
        (fdivV bcast_S_S1x512 (broadcastInDim S1x512 ![1] bcast_S512_S1x512_1 (iotaInDim S512 32 0))
          (constantI S_ 32 16#32)) (ix2 k q))) = _
  rw [bc_col_apply, bc_vec_col_apply, bc_row_apply, fdivV_apply, bc_vec_row_apply]
  show FloatOps.uitofp (F := Ideal) .bf16 (IntOp.cmpi .eq
      (BitVec.ofNat 32 k.val) (fdiv (BitVec.ofNat 32 q.val) (BitVec.ofNat 32 16))) = _
  rw [fdiv_ofNat q.val 16 (by omega) (Or.inr rfl)]
  exact uitofp_eq_ofNat _ _ (by omega) (by omega)

end Cert.Gcn.HostWin

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.BodyStages.lean ====
/-
  The layout operations and matrix products of the graph-convolution kernel's body, each read at one index of its
  result: the reshapes between the per-sample arrays and their flattened forms, the broadcast of the self-loop row, and
  the five matrix products as plain sums over the contraction coordinate.
-/
import proofs.«113682_g72318659330489_cont_9to1c4b_23_26_alg».proof.Proof.Gen.KernelIdeal.Skeleton
import proofs.«113682_g72318659330489_cont_9to1c4b_23_26_alg».proof.Proof.Spec
import proofs.«113682_g72318659330489_cont_9to1c4b_23_26_alg».proof.Proof.LibDotRows
import Idealize.ShloMosaic.Lib.ValueIdx
import Idealize.ShloMosaic.Lib.Pipeline.Value
import Idealize.ShloMosaic.Lib.ValueLayout
import Idealize.ShloMosaic.PureOps.Ideal.Laws

noncomputable section

namespace Cert.Gcn.Body

open Idealize.ShloMosaic Idealize.ShloMosaic.ValueIdx Cert.KernelIdeal Cert.KernelIdeal.Gen

/-! ## The matrix products read at an index

  On the ideal values a matrix product into the zero accumulator is the plain sum of products over the contraction
  index; for the one-axis contractions below that index is a single coordinate `k`. -/

/-- Features times weights: `[8192,128] · [128,16]`. -/
theorem mm_xw (l : FVec Ideal S8192x128 .f32) (r : FVec Ideal S128x16 .f32) (p : Fin 8192) (q : Fin 16) :
    matmul dot_S8192x128_S128x16_S8192x16_1_0_0_1_n_n none l r (constant (F := Ideal) S8192x16 .f32 0x00000000#32) (ix2 p q)
      = ∑ k : Fin 128, l (ix2 p k) * r (ix2 k q) := by
  refine (Ideal.matmul_constant_zero_apply dot_S8192x128_S128x16_S8192x16_1_0_0_1_n_n none l r (ix2 p q)).trans ?_
  dot_rows dot_S8192x128_S128x16_S8192x16_1_0_0_1_n_n S8192x128 S128x16 128

/-- The flattened adjacency times the row selector: `[256,1024] · [1024,32]`. -/
theorem mm_deg (l : FVec Ideal S256x1024 .bf16) (r : FVec Ideal S1024x32 .bf16) (p : Fin 256) (q : Fin 32) :
    matmul dot_S256x1024_S1024x32_S256x32_1_0_0_1_n_n none l r (constant (F := Ideal) S256x32 .f32 0x00000000#32) (ix2 p q)
      = ∑ k : Fin 1024, l (ix2 p k) * r (ix2 k q) := by
  refine (Ideal.matmul_constant_zero_apply dot_S256x1024_S1024x32_S256x32_1_0_0_1_n_n none l r (ix2 p q)).trans ?_
  dot_rows dot_S256x1024_S1024x32_S256x32_1_0_0_1_n_n S256x1024 S1024x32 1024

/-- The per-node scale spread over the flattened columns: `[256,32] · [32,1024]`. -/
theorem mm_vj (l : FVec Ideal S256x32 .bf16) (r : FVec Ideal S32x1024 .bf16) (p : Fin 256) (q : Fin 1024) :
    matmul dot_S256x32_S32x1024_S256x1024_1_0_0_1_n_n none l r (constant (F := Ideal) S256x1024 .f32 0x00000000#32) (ix2 p q)
      = ∑ k : Fin 32, l (ix2 p k) * r (ix2 k q) := by
  refine (Ideal.matmul_constant_zero_apply dot_S256x32_S32x1024_S256x1024_1_0_0_1_n_n none l r (ix2 p q)).trans ?_
  dot_rows dot_S256x32_S32x1024_S256x1024_1_0_0_1_n_n S256x32 S32x1024 32

/-- The per-node scale spread over the flattened output columns: `[256,32] · [32,512]`. -/
theorem mm_vi (l : FVec Ideal S256x32 .bf16) (r : FVec Ideal S32x512 .bf16) (p : Fin 256) (q : Fin 512) :
    matmul dot_S256x32_S32x512_S256x512_1_0_0_1_n_n none l r (constant (F := Ideal) S256x512 .f32 0x00000000#32) (ix2 p q)
      = ∑ k : Fin 32, l (ix2 p k) * r (ix2 k q) := by
  refine (Ideal.matmul_constant_zero_apply dot_S256x32_S32x512_S256x512_1_0_0_1_n_n none l r (ix2 p q)).trans ?_
  dot_rows dot_S256x32_S32x512_S256x512_1_0_0_1_n_n S256x32 S32x512 32

/-- The aggregation: a product batched over the sample axis, contracting the neighbour axis,
    `[256,32,32] · [256,32,16]`. -/
theorem mm_agg (l : FVec Ideal S256x32x32 .bf16) (r : FVec Ideal S256x32x16 .bf16) (b : Fin 256) (i : Fin 32) (o : Fin 16) :
    matmul dot_S256x32x32_S256x32x16_S256x32x16_2_1_1_2_0_0 none l r (constant (F := Ideal) S256x32x16 .f32 0x00000000#32) (ix3 b i o)
      = ∑ k : Fin 32, l (ix3 b i k) * r (ix3 b k o) := by
  refine (Ideal.matmul_constant_zero_apply dot_S256x32x32_S256x32x16_S256x32x16_2_1_1_2_0_0 none l r (ix3 b i o)).trans ?_
  have l0 : ∀ c, ((dot_S256x32x32_S256x32x16_S256x32x16_2_1_1_2_0_0.lhsIdx (ix3 b i o) c) 0).val = b.val := fun c => by
    unfold DotDims.lhsIdx
    rw [dif_pos (show (0 : Fin S256x32x32.rank) ∈ dot_S256x32x32_S256x32x16_S256x32x16_2_1_1_2_0_0.lhsBatch by decide)]
    rfl
  have l1 : ∀ c, ((dot_S256x32x32_S256x32x16_S256x32x16_2_1_1_2_0_0.lhsIdx (ix3 b i o) c) 1).val = i.val := fun c => by
    unfold DotDims.lhsIdx
    rw [dif_neg (show ¬(1 : Fin S256x32x32.rank) ∈ dot_S256x32x32_S256x32x16_S256x32x16_2_1_1_2_0_0.lhsBatch by decide), dif_pos (show (1 : Fin S256x32x32.rank) ∈ dot_S256x32x32_S256x32x16_S256x32x16_2_1_1_2_0_0.lhsNonContracting by decide)]
    rfl
  have l2 : ∀ c, ((dot_S256x32x32_S256x32x16_S256x32x16_2_1_1_2_0_0.lhsIdx (ix3 b i o) c) 2).val = (c ⟨0, by decide⟩).val := fun c =>
    dot_S256x32x32_S256x32x16_S256x32x16_2_1_1_2_0_0.lhsIdx_val_of_single rfl (ix3 b i o) c
  have r0 : ∀ c, ((dot_S256x32x32_S256x32x16_S256x32x16_2_1_1_2_0_0.rhsIdx (ix3 b i o) c) 0).val = b.val := fun c => by
    unfold DotDims.rhsIdx
    rw [dif_pos (show (0 : Fin S256x32x16.rank) ∈ dot_S256x32x32_S256x32x16_S256x32x16_2_1_1_2_0_0.rhsBatch by decide)]
    rfl
  have r1 : ∀ c, ((dot_S256x32x32_S256x32x16_S256x32x16_2_1_1_2_0_0.rhsIdx (ix3 b i o) c) 1).val = (c ⟨0, by decide⟩).val := fun c =>
    dot_S256x32x32_S256x32x16_S256x32x16_2_1_1_2_0_0.rhsIdx_val_of_single rfl (ix3 b i o) c
  have r2 : ∀ c, ((dot_S256x32x32_S256x32x16_S256x32x16_2_1_1_2_0_0.rhsIdx (ix3 b i o) c) 2).val = o.val := fun c => by
    unfold DotDims.rhsIdx
    rw [dif_neg (show ¬(2 : Fin S256x32x16.rank) ∈ dot_S256x32x32_S256x32x16_S256x32x16_2_1_1_2_0_0.rhsBatch by decide), dif_pos (show (2 : Fin S256x32x16.rank) ∈ dot_S256x32x32_S256x32x16_S256x32x16_2_1_1_2_0_0.rhsNonContracting by decide)]
    rfl
  rw [← Equiv.sum_comp (contrEquiv1 dot_S256x32x32_S256x32x16_S256x32x16_2_1_1_2_0_0 32 rfl rfl).symm]
  refine Finset.sum_congr rfl fun k _ => ?_
  have hk := contrEquiv1_symm_val dot_S256x32x32_S256x32x16_S256x32x16_2_1_1_2_0_0 32 rfl rfl k
  have el : dot_S256x32x32_S256x32x16_S256x32x16_2_1_1_2_0_0.lhsIdx (ix3 b i o) ((contrEquiv1 dot_S256x32x32_S256x32x16_S256x32x16_2_1_1_2_0_0 32 rfl rfl).symm k) = ix3 b i k := funext fun a => Fin.ext (by
    match a with
    | ⟨0, _⟩ => exact l0 _
    | ⟨1, _⟩ => exact l1 _
    | ⟨2, _⟩ => exact (l2 _).trans hk)
  have er : dot_S256x32x32_S256x32x16_S256x32x16_2_1_1_2_0_0.rhsIdx (ix3 b i o) ((contrEquiv1 dot_S256x32x32_S256x32x16_S256x32x16_2_1_1_2_0_0 32 rfl rfl).symm k) = ix3 b k o := funext fun a => Fin.ext (by
    match a with
    | ⟨0, _⟩ => exact r0 _
    | ⟨1, _⟩ => exact (r1 _).trans hk
    | ⟨2, _⟩ => exact r2 _)
  rw [el, er]

/-! ## The reshapes and the broadcast read at an index

  A reshape keeps the row-major position, so `[256,32,…]` against `[8192,…]` or `[256,1024]` pairs the index
  `(b, i, j)` with `(b * 32 + i, j)` or `(b, i * 32 + j)`. -/

/-- `[256,32,128] → [8192,128]`. -/
theorem cast_x {α : Type} (x : S256x32x128.Idx → α) (b : Fin 256) (j : Fin 32) (d : Fin 128) :
    shapeCast S8192x128 x shapeCasts_S256x32x128_S8192x128
        (ix2 (⟨b.val * 32 + j.val, by have := b.isLt; have := j.isLt; omega⟩ : Fin 8192) d) = x (ix3 b j d) := by
  refine shapeCast_apply x _ _ (ix3 b j d) ?_
  rw [Shape.rowMajor_val_three, Shape.rowMajor_val_two]
  show (b.val * 32 + j.val) * 128 + d.val = (b.val * 32 + j.val) * 128 + d.val
  rfl

/-- `[256,1024] → [256,32,32]`. -/
theorem cast_norm {α : Type} (x : S256x1024.Idx → α) (b : Fin 256) (i j : Fin 32) :
    shapeCast S256x32x32 x shapeCasts_S256x1024_S256x32x32 (ix3 b i j)
      = x (ix2 b (⟨i.val * 32 + j.val, by have := i.isLt; have := j.isLt; omega⟩ : Fin 1024)) := by
  refine shapeCast_apply x _ _ (ix2 b (⟨i.val * 32 + j.val, by have := i.isLt; have := j.isLt; omega⟩ : Fin 1024)) ?_
  rw [Shape.rowMajor_val_three, Shape.rowMajor_val_two]
  show b.val * 1024 + (i.val * 32 + j.val) = (b.val * 32 + i.val) * 32 + j.val
  omega

/-- `[8192,16] → [256,32,16]`. -/
theorem cast_xw {α : Type} (x : S8192x16.Idx → α) (b : Fin 256) (j : Fin 32) (o : Fin 16) :
    shapeCast S256x32x16 x shapeCasts_S8192x16_S256x32x16 (ix3 b j o)
      = x (ix2 (⟨b.val * 32 + j.val, by have := b.isLt; have := j.isLt; omega⟩ : Fin 8192) o) := by
  refine shapeCast_apply x _ _ (ix2 (⟨b.val * 32 + j.val, by have := b.isLt; have := j.isLt; omega⟩ : Fin 8192) o) ?_
  rw [Shape.rowMajor_val_three, Shape.rowMajor_val_two]
  show (b.val * 32 + j.val) * 16 + o.val = (b.val * 32 + j.val) * 16 + o.val
  rfl

/-- `[256,32,16] → [256,512]`. -/
theorem cast_out {α : Type} (x : S256x32x16.Idx → α) (b : Fin 256) (i : Fin 32) (o : Fin 16) :
    shapeCast S256x512 x shapeCasts_S256x32x16_S256x512
        (ix2 b (⟨i.val * 16 + o.val, by have := i.isLt; have := o.isLt; omega⟩ : Fin 512)) = x (ix3 b i o) := by
  refine shapeCast_apply x _ _ (ix3 b i o) ?_
  rw [Shape.rowMajor_val_three, Shape.rowMajor_val_two]
  show (b.val * 32 + i.val) * 16 + o.val = b.val * 512 + (i.val * 16 + o.val)
  omega

/-- The `[1,1024]` row, passed through `[1024]` and back, broadcast down the 256 rows. -/
theorem bcast_row {α : Type} (x : S1x1024.Idx → α) (b : Fin 256) (q : Fin 1024) :
    broadcastTo S256x1024 (shapeCast S1x1024 (shapeCast S1024 x shapeCasts_S1x1024_S1024) shapeCasts_S1024_S1x1024)
        broadcasts_S1x1024_S256x1024 (ix2 b q) = x (ix2 (0 : Fin 1) q) := by
  refine (broadcastTo_apply _ _ (ix2 b q) (ix2 (0 : Fin 1) q) (fun a => match a with
    | ⟨0, _⟩ => by show 0 = (if (1 : Nat) = 1 then 0 else b.val); rw [if_pos rfl]
    | ⟨1, _⟩ => by show q.val = (if (1024 : Nat) = 1 then 0 else q.val); rw [if_neg (by decide)])).trans ?_
  refine (shapeCast_apply _ _ (ix2 (0 : Fin 1) q) (ix1 q) (by
    rw [Shape.rowMajor_val_one, Shape.rowMajor_val_two]; show q.val = 0 * 1024 + q.val; omega)).trans ?_
  exact shapeCast_apply _ _ (ix1 q) (ix2 (0 : Fin 1) q) (by
    rw [Shape.rowMajor_val_two, Shape.rowMajor_val_one]; show 0 * 1024 + q.val = q.val; omega)

end Cert.Gcn.Body

end
-- ==== Proof.BodySums.lean ====
/-
  Collapsing a finite sum against a 0/1 selector on the extended reals.

  For every extended real `x` (finite or not) `x * 1 = x` and `x * 0 = 0`, so a sum whose terms are
  multiplied by an indicator keeps exactly the terms the indicator selects; no finiteness is needed.
  Two shapes occur: the indicator of a single index (the sum is that one term), and the indicator of the
  block `q / 32 = i` of `Fin 1024` (the sum runs over the 32 indices `i * 32 + j` of the block).
-/
import proofs.«113682_g72318659330489_cont_9to1c4b_23_26_alg».proof.Proof.Spec

namespace Cert.Gcn.Sums

/-- A sum against the indicator of the single index `m` is the term at `m`. -/
private theorem sum_sel_single (s : Fin 32 → EReal) (m : ℕ) (hm : m < 32) :
    (∑ k : Fin 32, s k * (if k.val = m then (1 : EReal) else 0)) = s ⟨m, hm⟩ := by
  rw [Finset.sum_eq_single (⟨m, hm⟩ : Fin 32)]
  · rw [if_pos rfl, mul_one]
  · intro k _ hk
    rw [if_neg (fun h => hk (Fin.ext h)), mul_zero]
  · intro h
    exact absurd (Finset.mem_univ _) h

/-- A sum over `Fin 1024` against the indicator of the block `q / 32 = i` is the sum over that block,
    whose members are `i * 32 + j` for `j < 32`. -/
theorem sum_sel_block (f : Fin 1024 → EReal) (i : Fin 32) :
    (∑ q : Fin 1024, f q * (if q.val / 32 = i.val then (1 : EReal) else 0)) = ∑ j : Fin 32, f ⟨i.val * 32 + j.val, by have := i.isLt; have := j.isLt; omega⟩ := by
  -- the indicator restricts the sum to the block
  have h1 : (∑ q : Fin 1024, f q * (if q.val / 32 = i.val then (1 : EReal) else 0))
      = ∑ q ∈ Finset.univ.filter (fun q : Fin 1024 => q.val / 32 = i.val), f q := by
    rw [Finset.sum_filter]
    refine Finset.sum_congr rfl fun q _ => ?_
    rw [mul_ite, mul_one, mul_zero]
  rw [h1]
  symm
  -- the block is the bijective image of `Fin 32` under `j ↦ i * 32 + j`, with inverse `q ↦ q % 32`
  refine Finset.sum_nbij'
    (fun j : Fin 32 => (⟨i.val * 32 + j.val, by have := i.isLt; have := j.isLt; omega⟩ : Fin 1024))
    (fun q : Fin 1024 => (⟨q.val % 32, Nat.mod_lt _ (by decide)⟩ : Fin 32)) ?_ ?_ ?_ ?_ ?_
  · intro j _
    rw [Finset.mem_filter]
    refine ⟨Finset.mem_univ _, ?_⟩
    show (i.val * 32 + j.val) / 32 = i.val
    have := j.isLt
    omega
  · intro q _
    exact Finset.mem_univ _
  · intro j _
    apply Fin.ext
    show (i.val * 32 + j.val) % 32 = j.val
    have := j.isLt
    omega
  · intro q hq
    rw [Finset.mem_filter] at hq
    apply Fin.ext
    show i.val * 32 + q.val % 32 = q.val
    have := hq.2
    omega
  · intro j _
    rfl

/-- A sum against the indicator of the index `q % 32` is the term there. -/
theorem sum_sel_mod (s : Fin 32 → EReal) (q : Fin 1024) :
    (∑ k : Fin 32, s k * (if k.val = q.val % 32 then (1 : EReal) else 0)) = s ⟨q.val % 32, Nat.mod_lt _ (by decide)⟩ :=
  sum_sel_single s _ _

/-- A sum against the indicator of the index `q / 16` (for `q < 512`) is the term there. -/
theorem sum_sel_div (s : Fin 32 → EReal) (q : Fin 512) :
    (∑ k : Fin 32, s k * (if k.val = q.val / 16 then (1 : EReal) else 0)) = s ⟨q.val / 16, by have := q.isLt; omega⟩ :=
  sum_sel_single s _ _

end Cert.Gcn.Sums
-- ==== Proof.BodyValue.lean ====
/-
  The arithmetic of the graph-convolution kernel's body at one index of its block: for sample `r`, node `i` and output
  feature `o` the body's value is the aggregate `(∑ j, (ahat i j * rs j) * xw j o) * rs i` of the specification, taken
  over that sample's adjacency words and features.
-/
import proofs.«113682_g72318659330489_cont_9to1c4b_23_26_alg».proof.Proof.BodyStages
import proofs.«113682_g72318659330489_cont_9to1c4b_23_26_alg».proof.Proof.BodySums

noncomputable section

namespace Cert.Gcn.Body

open Idealize.ShloMosaic Idealize.ShloMosaic.ValueIdx Cert.KernelIdeal Cert.KernelIdeal.Gen

/-! ## The body's intermediate arrays -/

/-- The adjacency block as numbers, the self-loop row added to every sample's flattened matrix. -/
def ahV (P2 : Vec Ideal S256x1024 .i32) (P3 : Vec Ideal S1x1024 .bf16) : FVec Ideal S256x1024 .bf16 :=
  addf (sitofp .bf16 (shapeCast S256x1024 P2 shapeCasts_S256x1024_S256x1024 : IVec S256x1024 32))
    (broadcastTo S256x1024 (shapeCast S1x1024 (shapeCast S1024 P3 shapeCasts_S1x1024_S1024) shapeCasts_S1024_S1x1024)
      broadcasts_S1x1024_S256x1024)

/-- The inverse square roots of the degrees: the row sums come from a product with the row selector. -/
def sV (P2 : Vec Ideal S256x1024 .i32) (P3 : Vec Ideal S1x1024 .bf16) (P4 : Vec Ideal S1024x32 .bf16) : FVec Ideal S256x32 .bf16 :=
  truncf (φ := .f32) .bf16 (rsqrt (matmul (φ₁ := .bf16) (φ₂ := .bf16) dot_S256x1024_S1024x32_S256x32_1_0_0_1_n_n none (ahV P2 P3)
    (shapeCast S1024x32 P4 shapeCasts_S1024x32_S1024x32 : FVec Ideal S1024x32 .bf16) (constant (F := Ideal) S256x32 .f32 0x00000000#32))) bitsLt_bf16_f32

/-- The features times the weights, all samples' nodes stacked. -/
def xwV (P0 : Vec Ideal S256x32x128 .f32) (P1 : Vec Ideal S128x16 .f32) : FVec Ideal S8192x16 .f32 :=
  matmul (φ₁ := .f32) (φ₂ := .f32) dot_S8192x128_S128x16_S8192x16_1_0_0_1_n_n none (shapeCast S8192x128 P0 shapeCasts_S256x32x128_S8192x128 : FVec Ideal S8192x128 .f32) (P1 : FVec Ideal S128x16 .f32) (constant (F := Ideal) S8192x16 .f32 0x00000000#32)

/-- The body's value, written over the three arrays above. -/
theorem pay2_eq (P0 : Vec Ideal S256x32x128 .f32) (P1 : Vec Ideal S128x16 .f32) (P2 : Vec Ideal S256x1024 .i32)
    (P3 : Vec Ideal S1x1024 .bf16) (P4 : Vec Ideal S1024x32 .bf16) (P5 : Vec Ideal S32x1024 .bf16) (P6 : Vec Ideal S32x512 .bf16) :
    k0_pay2 (F := Ideal) P0 P1 P2 P3 P4 P5 P6
      = mulf (extf (φ := .bf16) .f32 (shapeCast S256x512 (truncf (φ := .f32) .bf16 (matmul (φ₁ := .bf16) (φ₂ := .bf16) dot_S256x32x32_S256x32x16_S256x32x16_2_1_1_2_0_0 none (shapeCast S256x32x32 (mulf (ahV P2 P3) (truncf (φ := .f32) .bf16 (matmul (φ₁ := .bf16) (φ₂ := .bf16) dot_S256x32_S32x1024_S256x1024_1_0_0_1_n_n none (sV P2 P3 P4) (shapeCast S32x1024 P5 shapeCasts_S32x1024_S32x1024 : FVec Ideal S32x1024 .bf16) (constant (F := Ideal) S256x1024 .f32 0x00000000#32)) bitsLt_bf16_f32)) shapeCasts_S256x1024_S256x32x32) (truncf (φ := .f32) .bf16 (shapeCast S256x32x16 (xwV P0 P1) shapeCasts_S8192x16_S256x32x16) bitsLt_bf16_f32) (constant (F := Ideal) S256x32x16 .f32 0x00000000#32)) bitsLt_bf16_f32) shapeCasts_S256x32x16_S256x512) bitsLt_bf16_f32) (matmul (φ₁ := .bf16) (φ₂ := .bf16) dot_S256x32_S32x512_S256x512_1_0_0_1_n_n none (sV P2 P3 P4) (shapeCast S32x512 P6 shapeCasts_S32x512_S32x512 : FVec Ideal S32x512 .bf16) (constant (F := Ideal) S256x512 .f32 0x00000000#32)) := rfl

/-! ## Each array at an index -/

theorem ahV_apply (P2 : Vec Ideal S256x1024 .i32) (P3 : Vec Ideal S1x1024 .bf16) (b : Fin 256) (q : Fin 1024) :
    ahV P2 P3 (ix2 b q) = (((BitVec.toInt (P2 (ix2 b q)) : ℤ) : ℝ) : EReal) + P3 (ix2 (0 : Fin 1) q) := by
  unfold ahV
  have e1 : (sitofp (F := Ideal) .bf16 (shapeCast S256x1024 P2 shapeCasts_S256x1024_S256x1024 : IVec S256x1024 32)) (ix2 b q)
      = (((BitVec.toInt (P2 (ix2 b q)) : ℤ) : ℝ) : EReal) := by
    rw [shapeCast_self]; rfl
  exact congrArg₂ (fun u v : EReal => u + v) e1 (bcast_row P3 b q)

theorem sV_apply (P2 : Vec Ideal S256x1024 .i32) (P3 : Vec Ideal S1x1024 .bf16) (P4 : Vec Ideal S1024x32 .bf16) (b : Fin 256) (k : Fin 32) :
    sV P2 P3 P4 (ix2 b k) = Ideal.rsqrt (∑ q : Fin 1024, ahV P2 P3 (ix2 b q) * P4 (ix2 q k)) := by
  unfold sV
  show Ideal.rsqrt ((matmul (φ₁ := .bf16) (φ₂ := .bf16) dot_S256x1024_S1024x32_S256x32_1_0_0_1_n_n none (ahV P2 P3)
    (shapeCast S1024x32 P4 shapeCasts_S1024x32_S1024x32 : FVec Ideal S1024x32 .bf16) (constant (F := Ideal) S256x32 .f32 0x00000000#32)) (ix2 b k)) = _
  refine congrArg Ideal.rsqrt ?_
  rw [shapeCast_self]
  exact mm_deg (ahV P2 P3) P4 b k

theorem xwV_apply (P0 : Vec Ideal S256x32x128 .f32) (P1 : Vec Ideal S128x16 .f32) (b : Fin 256) (j : Fin 32) (o : Fin 16) :
    xwV P0 P1 (ix2 (⟨b.val * 32 + j.val, by have := b.isLt; have := j.isLt; omega⟩ : Fin 8192) o)
      = ∑ d : Fin 128, P0 (ix3 b j d) * P1 (ix2 d o) := by
  unfold xwV
  refine (mm_xw _ P1 _ o).trans ?_
  exact Finset.sum_congr rfl fun d _ => congrArg (fun t : EReal => t * P1 (ix2 d o)) (cast_x P0 b j d)

/-! ## The arrays as the specification's quantities -/

/-- An entry of the block with its self loop is the specification's `ahatR`: the flattened column `i * 32 + j` is on
    the diagonal exactly when `i = j`. -/
theorem ah_spec (P2 : Vec Ideal S256x1024 .i32) (P3 : Vec Ideal S1x1024 .bf16) (h3 : ∀ q : Fin 1024, P3 (ix2 (0 : Fin 1) q) = if q.val / 32 = q.val % 32 then (1 : EReal) else 0)
    (b : Fin 256) (i j : Fin 32) :
    ahV P2 P3 (ix2 b (⟨i.val * 32 + j.val, by have := i.isLt; have := j.isLt; omega⟩ : Fin 1024)) = ((Cert.Gcn.ahatR (fun i' j' => P2 (ix2 b (⟨i'.val * 32 + j'.val, by have := i'.isLt; have := j'.isLt; omega⟩ : Fin 1024))) i j : ℝ) : EReal) := by
  have hi := i.isLt
  have hj := j.isLt
  rw [ahV_apply, h3]
  unfold Cert.Gcn.ahatR
  rw [EReal.coe_add]
  refine congrArg (fun t : EReal => (((BitVec.toInt (P2 (ix2 b (⟨i.val * 32 + j.val, by have := i.isLt; have := j.isLt; omega⟩ : Fin 1024))) : ℤ) : ℝ) : EReal) + t) ?_
  by_cases h : i = j
  · rw [if_pos h, if_pos (show (i.val * 32 + j.val) / 32 = (i.val * 32 + j.val) % 32 by rw [h]; omega)]
    exact EReal.coe_one.symm
  · rw [if_neg h, if_neg (show ¬ (i.val * 32 + j.val) / 32 = (i.val * 32 + j.val) % 32 from fun h' => h (Fin.ext (by omega)))]
    exact EReal.coe_zero.symm

/-- The scale of node `k` is the specification's `rs`: the product with the row selector sums row `k`. -/
theorem s_spec (P2 : Vec Ideal S256x1024 .i32) (P3 : Vec Ideal S1x1024 .bf16) (P4 : Vec Ideal S1024x32 .bf16)
    (h3 : ∀ q : Fin 1024, P3 (ix2 (0 : Fin 1) q) = if q.val / 32 = q.val % 32 then (1 : EReal) else 0)
    (h4 : ∀ (q : Fin 1024) (i : Fin 32), P4 (ix2 q i) = if q.val / 32 = i.val then (1 : EReal) else 0)
    (b : Fin 256) (k : Fin 32) :
    sV P2 P3 P4 (ix2 b k) = Cert.Gcn.rs (fun i' j' => P2 (ix2 b (⟨i'.val * 32 + j'.val, by have := i'.isLt; have := j'.isLt; omega⟩ : Fin 1024))) k := by
  rw [sV_apply]
  unfold Cert.Gcn.rs Cert.Gcn.degR
  refine congrArg Ideal.rsqrt ?_
  rw [Cert.Gcn.coe_sum]
  refine (Finset.sum_congr rfl fun q _ => congrArg (fun t : EReal => ahV P2 P3 (ix2 b q) * t) (h4 q k)).trans ?_
  refine (Cert.Gcn.Sums.sum_sel_block (fun q => ahV P2 P3 (ix2 b q)) k).trans ?_
  exact Finset.sum_congr rfl fun j _ => ah_spec P2 P3 h3 b k j

/-! ## The body at an index -/

theorem pay2_apply (P0 : Vec Ideal S256x32x128 .f32) (P1 : Vec Ideal S128x16 .f32) (P2 : Vec Ideal S256x1024 .i32)
    (P3 : Vec Ideal S1x1024 .bf16) (P4 : Vec Ideal S1024x32 .bf16) (P5 : Vec Ideal S32x1024 .bf16) (P6 : Vec Ideal S32x512 .bf16)
    (h3 : ∀ q : Fin 1024, P3 (ix2 (0 : Fin 1) q) = if q.val / 32 = q.val % 32 then (1 : EReal) else 0)
    (h4 : ∀ (q : Fin 1024) (i : Fin 32), P4 (ix2 q i) = if q.val / 32 = i.val then (1 : EReal) else 0)
    (h5 : ∀ (k : Fin 32) (q : Fin 1024), P5 (ix2 k q) = if k.val = q.val % 32 then (1 : EReal) else 0)
    (h6 : ∀ (k : Fin 32) (q : Fin 512), P6 (ix2 k q) = if k.val = q.val / 16 then (1 : EReal) else 0)
    (r : Fin 256) (i : Fin 32) (o : Fin 16) :
    k0_pay2 (F := Ideal) P0 P1 P2 P3 P4 P5 P6 (ix2 r (⟨i.val * 16 + o.val, by have := i.isLt; have := o.isLt; omega⟩ : Fin 512))
      = Cert.Gcn.aggK (fun i' j' => P2 (ix2 r (⟨i'.val * 32 + j'.val, by have := i'.isLt; have := j'.isLt; omega⟩ : Fin 1024)))
          (fun j' d' => P0 (ix3 r j' d')) (fun d' o' => P1 (ix2 d' o')) i o := by
  have hi := i.isLt
  have ho := o.isLt
  rw [pay2_eq]
  -- the row factor: the product with the output-column selector reads the scale of node `c / 16 = i`
  have hB : (matmul (φ₁ := .bf16) (φ₂ := .bf16) dot_S256x32_S32x512_S256x512_1_0_0_1_n_n none (sV P2 P3 P4) (shapeCast S32x512 P6 shapeCasts_S32x512_S32x512 : FVec Ideal S32x512 .bf16) (constant (F := Ideal) S256x512 .f32 0x00000000#32)) (ix2 r (⟨i.val * 16 + o.val, by omega⟩ : Fin 512)) = Cert.Gcn.rs (fun i' j' => P2 (ix2 r (⟨i'.val * 32 + j'.val, by have := i'.isLt; have := j'.isLt; omega⟩ : Fin 1024))) i := by
    refine (mm_vi _ _ r _).trans ?_
    rw [shapeCast_self]
    refine (Finset.sum_congr rfl fun k _ => congrArg (fun t : EReal => sV P2 P3 P4 (ix2 r k) * t) (h6 k _)).trans ?_
    refine (Cert.Gcn.Sums.sum_sel_div (fun k => sV P2 P3 P4 (ix2 r k)) _).trans ?_
    exact (congrArg (fun t : Fin 32 => sV P2 P3 P4 (ix2 r t)) (Fin.ext (show (i.val * 16 + o.val) / 16 = i.val by omega))).trans
      (s_spec P2 P3 P4 h3 h4 r i)
  -- the aggregate: the batched product over the neighbours `j`
  have hA : (shapeCast S256x512 (truncf (φ := .f32) .bf16 (matmul (φ₁ := .bf16) (φ₂ := .bf16) dot_S256x32x32_S256x32x16_S256x32x16_2_1_1_2_0_0 none (shapeCast S256x32x32 (mulf (ahV P2 P3) (truncf (φ := .f32) .bf16 (matmul (φ₁ := .bf16) (φ₂ := .bf16) dot_S256x32_S32x1024_S256x1024_1_0_0_1_n_n none (sV P2 P3 P4) (shapeCast S32x1024 P5 shapeCasts_S32x1024_S32x1024 : FVec Ideal S32x1024 .bf16) (constant (F := Ideal) S256x1024 .f32 0x00000000#32)) bitsLt_bf16_f32)) shapeCasts_S256x1024_S256x32x32) (truncf (φ := .f32) .bf16 (shapeCast S256x32x16 (xwV P0 P1) shapeCasts_S8192x16_S256x32x16) bitsLt_bf16_f32) (constant (F := Ideal) S256x32x16 .f32 0x00000000#32)) bitsLt_bf16_f32) shapeCasts_S256x32x16_S256x512) (ix2 r (⟨i.val * 16 + o.val, by omega⟩ : Fin 512))
      = ∑ j : Fin 32, ((Cert.Gcn.ahatR (fun i' j' => P2 (ix2 r (⟨i'.val * 32 + j'.val, by have := i'.isLt; have := j'.isLt; omega⟩ : Fin 1024))) i j : ℝ) : EReal) * Cert.Gcn.rs (fun i' j' => P2 (ix2 r (⟨i'.val * 32 + j'.val, by have := i'.isLt; have := j'.isLt; omega⟩ : Fin 1024))) j
          * Cert.Gcn.xw (fun j' d' => P0 (ix3 r j' d')) (fun d' o' => P1 (ix2 d' o')) j o := by
    refine (cast_out _ r i o).trans ?_
    refine (truncf_apply (φ := .f32) (ψ := .bf16) _ bitsLt_bf16_f32 _).trans ?_
    refine (mm_agg _ _ r i o).trans ?_
    refine Finset.sum_congr rfl fun j _ => ?_
    have hj := j.isLt
    refine congrArg₂ (fun u v : EReal => u * v) ?_ ?_
    · -- the normalised entry: the column scale comes from the product with the column selector, at `q % 32 = j`
      refine (cast_norm _ r i j).trans ?_
      refine (mulf_apply (φ := .bf16) _ _ _).trans ?_
      refine congrArg₂ (fun u v : EReal => u * v) (ah_spec P2 P3 h3 r i j) ?_
      refine (truncf_apply (φ := .f32) (ψ := .bf16) _ bitsLt_bf16_f32 _).trans ?_
      refine (mm_vj _ _ r _).trans ?_
      rw [shapeCast_self]
      refine (Finset.sum_congr rfl fun k _ => congrArg (fun t : EReal => sV P2 P3 P4 (ix2 r k) * t) (h5 k _)).trans ?_
      refine (Cert.Gcn.Sums.sum_sel_mod (fun k => sV P2 P3 P4 (ix2 r k)) _).trans ?_
      exact (congrArg (fun t : Fin 32 => sV P2 P3 P4 (ix2 r t)) (Fin.ext (show (i.val * 32 + j.val) % 32 = j.val by omega))).trans
        (s_spec P2 P3 P4 h3 h4 r j)
    · -- the neighbour's transformed features
      refine (truncf_apply (φ := .f32) (ψ := .bf16) _ bitsLt_bf16_f32 _).trans ?_
      refine (cast_xw _ r j o).trans ?_
      exact xwV_apply P0 P1 r j o
  refine (mulf_apply (φ := .f32) _ _ _).trans ?_
  exact congrArg₂ (fun u v : EReal => u * v) ((extf_apply (φ := .bf16) (ψ := .f32) _ bitsLt_bf16_f32 _).trans hA) hB

end Cert.Gcn.Body

end
-- ==== Proof.Final.lean ====
/-
  From the blocks to the array: what the kernel program's result holds after its run.

  The pallas_call walks 16 grid points; point `t` stages samples `t * 256 … t * 256 + 255` of the node features and
  of the flattened adjacency words, the whole weight matrix, the four 0/1 selector matrices and the tiled bias (all
  six built on the host before the call, the same at every point), and writes one [256, 512] block of the result.
  Row `r` of that block is the first arrangement of the layer — scale the columns of the adjacency with self
  loops by the inverse square roots of the degrees, aggregate the projected features over the neighbours, scale the
  row, add the bias — for sample `t * 256 + r`, column `q` holding node `q / 16`, feature `q % 16`. The 16 blocks
  tile the [4096, 512] result (sample `b` is written by point `b / 256`), so after the run the result array is that
  arrangement of the argument arrays, index by index.
-/
import proofs.«113682_g72318659330489_cont_9to1c4b_23_26_alg».proof.Proof.Spec
import proofs.«113682_g72318659330489_cont_9to1c4b_23_26_alg».proof.Proof.Gen.KernelIdeal.Value
import proofs.«113682_g72318659330489_cont_9to1c4b_23_26_alg».proof.Proof.HostWinA
import proofs.«113682_g72318659330489_cont_9to1c4b_23_26_alg».proof.Proof.HostWinK
import proofs.«113682_g72318659330489_cont_9to1c4b_23_26_alg».proof.Proof.HostWinB
import proofs.«113682_g72318659330489_cont_9to1c4b_23_26_alg».proof.Proof.HostWinMo
import proofs.«113682_g72318659330489_cont_9to1c4b_23_26_alg».proof.Proof.BodyValue
import Idealize.ShloMosaic.Lib.ValueIdx
import Idealize.ShloMosaic.Lib.Pipeline.Value

noncomputable section

open Idealize.ShloMosaic Idealize.ShloMosaic.ValueIdx Idealize.ShloMosaic.TcCoe Idealize.SL.Sem

namespace Cert.Gcn.Final

open Cert.KernelIdeal Cert.KernelIdeal.Gen
open Idealize.ShloMosaic.Pipeline (Dat)

variable (m : (ℓ : Loc nD τ sig) → Buf (Elt Ideal) ℓ) (ρ : Dev nD → PrngReg)

/-- Where each window's block sits at grid point `t`: the feature, adjacency and result windows move one block of
    256 samples per point along the sample axis; the six constant operands stay at block zero. Decided over the
    16 points. -/
theorem idx_facts : ∀ t : Fin cfg0.N,
      win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The grid has 16 points. -/
theorem N16 (t : Fin cfg0.N) : t.val < 16 := by
  have h : cfg0.N = 16 := N_0
  have := t.isLt; omega

/-- Sample `r` of point `t`'s block is sample `t * 256 + r` of the batch. -/
def smp (t : Fin cfg0.N) (r : Fin 256) : Fin 4096 := ⟨t.val * 256 + r.val, by have := N16 t; have := r.isLt; omega⟩

/-! ## Each window's block, read off its array -/

/-- The diagonal mask's block is the whole mask. -/
theorem blk3 (c : Dev nD) (t : Fin cfg0.N) (q : Fin 1024) :
    iblk m c 3 t (ix2 (0 : Fin 1) q) = (V m c main_v7 : S1x1024.Idx → EReal) (ix2 (0 : Fin 1) q) := by
  obtain ⟨-, -, -, -, -, -, -, e0, e1, -⟩ := idx_facts t
  show V m c main_v7 (((cfg0.win 3).blk t).view.emb (ix2 (0 : Fin 1) q)) = V m c main_v7 (ix2 (0 : Fin 1) q)
  refine congrArg _ ?_
  funext a; apply Fin.ext
  match a with
  | ⟨0, _⟩ => show win0_3.index t (0 : Fin 2) * 1 + 1 * 0 = 0; omega
  | ⟨1, _⟩ => show win0_3.index t (1 : Fin 2) * 1024 + 1 * q.val = q.val; omega

/-- The degree-compaction matrix's block is the whole matrix. -/
theorem blk4 (c : Dev nD) (t : Fin cfg0.N) (q : Fin 1024) (i : Fin 32) :
    iblk m c 4 t (ix2 q i) = (V m c main_v14 : S1024x32.Idx → EReal) (ix2 q i) := by
  obtain ⟨-, -, -, -, -, -, -, -, -, e0, e1, -⟩ := idx_facts t
  show V m c main_v14 (((cfg0.win 4).blk t).view.emb (ix2 q i)) = V m c main_v14 (ix2 q i)
  refine congrArg _ ?_
  funext a; apply Fin.ext
  match a with
  | ⟨0, _⟩ => show win0_4.index t (0 : Fin 2) * 1024 + 1 * q.val = q.val; omega
  | ⟨1, _⟩ => show win0_4.index t (1 : Fin 2) * 32 + 1 * i.val = i.val; omega

/-- The column-scaling selector's block is the whole selector. -/
theorem blk5 (c : Dev nD) (t : Fin cfg0.N) (k : Fin 32) (q : Fin 1024) :
    iblk m c 5 t (ix2 k q) = (V m c main_v21 : S32x1024.Idx → EReal) (ix2 k q) := by
  obtain ⟨-, -, -, -, -, -, -, -, -, -, -, e0, e1, -⟩ := idx_facts t
  show V m c main_v21 (((cfg0.win 5).blk t).view.emb (ix2 k q)) = V m c main_v21 (ix2 k q)
  refine congrArg _ ?_
  funext a; apply Fin.ext
  match a with
  | ⟨0, _⟩ => show win0_5.index t (0 : Fin 2) * 32 + 1 * k.val = k.val; omega
  | ⟨1, _⟩ => show win0_5.index t (1 : Fin 2) * 1024 + 1 * q.val = q.val; omega

/-- The row-scaling selector's block is the whole selector. -/
theorem blk6 (c : Dev nD) (t : Fin cfg0.N) (k : Fin 32) (q : Fin 512) :
    iblk m c 6 t (ix2 k q) = (V m c main_v28 : S32x512.Idx → EReal) (ix2 k q) := by
  obtain ⟨-, -, -, -, -, -, -, -, -, -, -, -, -, e0, e1, -⟩ := idx_facts t
  show V m c main_v28 (((cfg0.win 6).blk t).view.emb (ix2 k q)) = V m c main_v28 (ix2 k q)
  refine congrArg _ ?_
  funext a; apply Fin.ext
  match a with
  | ⟨0, _⟩ => show win0_6.index t (0 : Fin 2) * 32 + 1 * k.val = k.val; omega
  | ⟨1, _⟩ => show win0_6.index t (1 : Fin 2) * 512 + 1 * q.val = q.val; omega

/-- The tiled bias's block is the whole row. -/
theorem blk7 (c : Dev nD) (t : Fin cfg0.N) (q : Fin 512) :
    iblk m c 7 t (ix2 (0 : Fin 1) q) = (V m c main_v32 : S1x512.Idx → EReal) (ix2 (0 : Fin 1) q) := by
  obtain ⟨-, -, -, -, -, -, -, -, -, -, -, -, -, -, -, e0, e1, -⟩ := idx_facts t
  show V m c main_v32 (((cfg0.win 7).blk t).view.emb (ix2 (0 : Fin 1) q)) = V m c main_v32 (ix2 (0 : Fin 1) q)
  refine congrArg _ ?_
  funext a; apply Fin.ext
  match a with
  | ⟨0, _⟩ => show win0_7.index t (0 : Fin 2) * 1 + 1 * 0 = 0; omega
  | ⟨1, _⟩ => show win0_7.index t (1 : Fin 2) * 512 + 1 * q.val = q.val; omega

/-- The weight matrix's block is the whole matrix, as launched. -/
theorem blk2 (c : Dev nD) (t : Fin cfg0.N) (d : Fin 128) (o : Fin 16) :
    iblk m c 2 t (ix2 d o) = (m ((c : Thread nD τ).loc main_arg2) : S128x16.Idx → EReal) (ix2 d o) := by
  obtain ⟨-, -, -, -, -, e0, e1, -⟩ := idx_facts t
  refine Eq.trans ?_ (congrFun (V_main_arg2 m c) (ix2 d o))
  show V m c main_arg2 (((cfg0.win 2).blk t).view.emb (ix2 d o)) = V m c main_arg2 (ix2 d o)
  refine congrArg _ ?_
  funext a; apply Fin.ext
  match a with
  | ⟨0, _⟩ => show win0_2.index t (0 : Fin 2) * 128 + 1 * d.val = d.val; omega
  | ⟨1, _⟩ => show win0_2.index t (1 : Fin 2) * 16 + 1 * o.val = o.val; omega

/-- Row `r` of the feature block at point `t` is sample `t * 256 + r`'s features, as launched. -/
theorem blk0 (c : Dev nD) (t : Fin cfg0.N) (r : Fin 256) (j : Fin 32) (d : Fin 128) :
    iblk m c 0 t (ix3 r j d) = (m ((c : Thread nD τ).loc main_arg0) : S4096x32x128.Idx → EReal) (ix3 (smp t r) j d) := by
  obtain ⟨e0, e1, e2, -⟩ := idx_facts t
  refine Eq.trans ?_ (congrFun (V_main_arg0 m c) (ix3 (smp t r) j d))
  show V m c main_arg0 (((cfg0.win 0).blk t).view.emb (ix3 r j d)) = V m c main_arg0 (ix3 (smp t r) j d)
  refine congrArg _ ?_
  funext a; apply Fin.ext
  match a with
  | ⟨0, _⟩ => show win0_0.index t (0 : Fin 3) * 256 + 1 * r.val = t.val * 256 + r.val; omega
  | ⟨1, _⟩ => show win0_0.index t (1 : Fin 3) * 32 + 1 * j.val = j.val; omega
  | ⟨2, _⟩ => show win0_0.index t (2 : Fin 3) * 128 + 1 * d.val = d.val; omega

/-- Row `r` of the flattened adjacency block at point `t` is sample `t * 256 + r`'s adjacency words, row-major. -/
theorem blk1 (c : Dev nD) (t : Fin cfg0.N) (r : Fin 256) (i j : Fin 32) :
    iblk m c 1 t (ix2 r (⟨i.val * 32 + j.val, by have := i.isLt; have := j.isLt; omega⟩ : Fin 1024))
      = (m ((c : Thread nD τ).loc main_arg1) : S4096x32x32.Idx → BitVec 32) (ix3 (smp t r) i j) := by
  obtain ⟨-, -, -, e0, e1, -⟩ := idx_facts t
  have hi := i.isLt
  have hj := j.isLt
  have h1 : iblk m c 1 t (ix2 r (⟨i.val * 32 + j.val, by omega⟩ : Fin 1024))
      = (V m c main_v33 : S4096x1024.Idx → BitVec 32) (ix2 (smp t r) (⟨i.val * 32 + j.val, by omega⟩ : Fin 1024)) := by
    show V m c main_v33 (((cfg0.win 1).blk t).view.emb (ix2 r (⟨i.val * 32 + j.val, by omega⟩ : Fin 1024))) = V m c main_v33 (ix2 (smp t r) (⟨i.val * 32 + j.val, by omega⟩ : Fin 1024))
    refine congrArg _ ?_
    funext a; apply Fin.ext
    match a with
    | ⟨0, _⟩ => show win0_1.index t (0 : Fin 2) * 256 + 1 * r.val = t.val * 256 + r.val; omega
    | ⟨1, _⟩ => show win0_1.index t (1 : Fin 2) * 1024 + 1 * (i.val * 32 + j.val) = i.val * 32 + j.val; omega
  rw [h1, Cert.Gcn.HostWin.adjflat_apply m c (smp t r) ⟨i.val * 32 + j.val, by omega⟩]
  refine congrArg _ ?_
  funext a; apply Fin.ext
  match a with
  | ⟨0, _⟩ => rfl
  | ⟨1, _⟩ => show (i.val * 32 + j.val) / 32 = i.val; omega
  | ⟨2, _⟩ => show (i.val * 32 + j.val) % 32 = j.val; omega

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point leaves in its block -/

/-- The stored block at row `r`, column `q`, over VARIABLE operands: when the four selector operands are the
    0/1 matrices they are meant to be and the last operand is the bias tiled along the row, the entry is the first
    arrangement's value for the sample whose adjacency words and features sit in row `r` of the two moving
    operands — node `q / 16`, feature `q % 16`. -/
theorem E8_apply (P0 : Vec Ideal S256x32x128 .f32) (P1 : Vec Ideal S128x16 .f32) (P2 : Vec Ideal S256x1024 .i32)
    (P3 : Vec Ideal S1x1024 .bf16) (P4 : Vec Ideal S1024x32 .bf16) (P5 : Vec Ideal S32x1024 .bf16) (P6 : Vec Ideal S32x512 .bf16)
    (P7 : Vec Ideal S1x512 .f32) (β : Fin 16 → EReal)
    (h3 : ∀ q : Fin 1024, P3 (ix2 (0 : Fin 1) q) = if q.val / 32 = q.val % 32 then (1 : EReal) else 0)
    (h4 : ∀ (q : Fin 1024) (i : Fin 32), P4 (ix2 q i) = if q.val / 32 = i.val then (1 : EReal) else 0)
    (h5 : ∀ (k : Fin 32) (q : Fin 1024), P5 (ix2 k q) = if k.val = q.val % 32 then (1 : EReal) else 0)
    (h6 : ∀ (k : Fin 32) (q : Fin 512), P6 (ix2 k q) = if k.val = q.val / 16 then (1 : EReal) else 0)
    (h7 : ∀ q : Fin 512, P7 (ix2 (0 : Fin 1) q) = β (⟨q.val % 16, Nat.mod_lt _ (by decide)⟩ : Fin 16))
    (r : Fin 256) (q : Fin 512) :
    Cert.KernelIdeal.Value.E8 P0 P1 P2 P3 P4 P5 P6 P7 (ix2 r q)
      = Cert.Gcn.outK (fun i' j' => P2 (ix2 r (⟨i'.val * 32 + j'.val, by have := i'.isLt; have := j'.isLt; omega⟩ : Fin 1024)))
          (fun j' d' => P0 (ix3 r j' d')) (fun d' o' => P1 (ix2 d' o')) β
          (⟨q.val / 16, by have := q.isLt; omega⟩ : Fin 32) (⟨q.val % 16, Nat.mod_lt _ (by decide)⟩ : Fin 16) := by
  have hq := q.isLt
  show FloatOps.addf (k0_pay2 P0 P1 P2 P3 P4 P5 P6 (Cert.KernelIdeal.Value.ix8_0 (ix2 r q))) (P7 (Cert.KernelIdeal.Value.ix8_1 (ix2 r q))) = _
  have e0 : Cert.KernelIdeal.Value.ix8_0 (ix2 r q) = ix2 r (⟨(⟨q.val / 16, by omega⟩ : Fin 32).val * 16 + (⟨q.val % 16, Nat.mod_lt _ (by decide)⟩ : Fin 16).val, by show q.val / 16 * 16 + q.val % 16 < 512; omega⟩ : Fin 512) := by
    funext a; apply Fin.ext
    match a with
    | ⟨0, _⟩ => rfl
    | ⟨1, _⟩ => show q.val = q.val / 16 * 16 + q.val % 16; omega
  have e1 : Cert.KernelIdeal.Value.ix8_1 (ix2 r q) = ix2 (0 : Fin 1) q := by
    funext a; apply Fin.ext
    match a with
    | ⟨0, _⟩ => rfl
    | ⟨1, _⟩ => rfl
  rw [e0, e1, h7, Cert.Gcn.Body.pay2_apply P0 P1 P2 P3 P4 P5 P6 h3 h4 h5 h6 r ⟨q.val / 16, by omega⟩ ⟨q.val % 16, Nat.mod_lt _ (by decide)⟩]
  rfl

/-- The first arrangement's array of the argument arrays as launched. -/
abbrev Gm (c : Dev nD) : S4096x512.Idx → EReal :=
  Cert.Gcn.GK (m ((c : Thread nD τ).loc main_arg0)) (m ((c : Thread nD τ).loc main_arg1)) (m ((c : Thread nD τ).loc main_arg2)) (m ((c : Thread nD τ).loc main_arg3))

/-- WHAT POINT `t` WRITES BACK is block `t` of that array: row `r` of the point's operands is sample `t * 256 + r`. -/
theorem flushed_eq (c : Dev nD) (t : Fin cfg0.N) :
    (dats m 0 c).flushed 8 t = ((cfg0.win 8).blk t).view.read (Elt Ideal) (Gm m c) := by
  rw [Cert.KernelIdeal.Value.flushed8]
  funext y
  show out0_8 (iblk m c 0 t) (iblk m c 1 t) (iblk m c 2 t) (iblk m c 3 t) (iblk m c 4 t) (iblk m c 5 t) (iblk m c 6 t) (iblk m c 7 t) y
      = Gm m c (((cfg0.win 8).blk t).view.emb y)
  have h0 : (y 0).val < 256 := (y 0).isLt
  have h1 : (y 1).val < 512 := (y 1).isLt
  have hy : y = ix2 (⟨(y 0).val, h0⟩ : Fin 256) (⟨(y 1).val, h1⟩ : Fin 512) := by
    funext a
    match a with
    | ⟨0, _⟩ => rfl
    | ⟨1, _⟩ => rfl
  rw [hy]
  generalize (⟨(y 0).val, h0⟩ : Fin 256) = r
  generalize (⟨(y 1).val, h1⟩ : Fin 512) = q
  unfold out0_8
  rw [Cert.KernelIdeal.Value.canon8_eq]
  simp only [View.ld_unit_zero (S := S256x32x128) hz3, View.ld_unit_zero (S := S128x16) hz2, View.ld_unit_zero (S := S256x1024) hz2,
    View.ld_unit_zero (S := S1x1024) hz2, View.ld_unit_zero (S := S1024x32) hz2, View.ld_unit_zero (S := S32x1024) hz2,
    View.ld_unit_zero (S := S32x512) hz2, View.ld_unit_zero (S := S1x512) hz2]
  refine (E8_apply (iblk m c 0 t) (iblk m c 2 t) (iblk m c 1 t) (iblk m c 3 t) (iblk m c 4 t) (iblk m c 5 t) (iblk m c 6 t) (iblk m c 7 t)
    (Cert.Gcn.vecOf (m ((c : Thread nD τ).loc main_arg3)))
    (fun q => (blk3 m c t q).trans (Cert.Gcn.HostWin.diag_apply m c q))
    (fun q i => (blk4 m c t q i).trans (Cert.Gcn.HostWin.kmat_apply m c q i))
    (fun k q => (blk5 m c t k q).trans (Cert.Gcn.HostWin.mj_apply m c k q))
    (fun k q => (blk6 m c t k q).trans (Cert.Gcn.HostWin.mo_apply m c k q))
    (fun q => (blk7 m c t q).trans (Cert.Gcn.HostWin.bflat_apply m c q)) r q).trans ?_
  obtain ⟨-, -, -, -, -, -, -, -, -, -, -, -, -, -, -, -, -, e0, e1⟩ := idx_facts t
  have hq := q.isLt
  have hemb : ((cfg0.win 8).blk t).view.emb (ix2 r q) = ix2 (smp t r) q := by
    funext a; apply Fin.ext
    match a with
    | ⟨0, _⟩ => show win0_8.index t (0 : Fin 2) * 256 + 1 * r.val = t.val * 256 + r.val; omega
    | ⟨1, _⟩ => show win0_8.index t (1 : Fin 2) * 512 + 1 * q.val = q.val; omega
  rw [hemb]
  have ha : (fun (i' j' : Fin 32) => iblk m c 1 t (ix2 r (⟨i'.val * 32 + j'.val, by have := i'.isLt; have := j'.isLt; omega⟩ : Fin 1024)))
      = Cert.Gcn.adjOf (m ((c : Thread nD τ).loc main_arg1)) (smp t r) := by
    funext i' j'; exact blk1 m c t r i' j'
  have hx : (fun (j' : Fin 32) (d' : Fin 128) => iblk m c 0 t (ix3 r j' d'))
      = Cert.Gcn.featOf (m ((c : Thread nD τ).loc main_arg0)) (smp t r) := by
    funext j' d'; exact blk0 m c t r j' d'
  have hw : (fun (d' : Fin 128) (o' : Fin 16) => iblk m c 2 t (ix2 d' o'))
      = Cert.Gcn.matOf (m ((c : Thread nD τ).loc main_arg2)) := by
    funext d' o'; exact blk2 m c t d' o'
  rw [ha, hx, hw]
  rfl

/-! ## The blocks cover the result -/

/-- An index of the result is in point `t`'s block iff each coordinate is in the block's range on its axis. -/
theorem mem_blk8 (t : Fin cfg0.N) (i : S4096x512.Idx) :
    i ∈ ((cfg0.win 8).blk t).view.set ↔ ∀ a : Fin 2, win0_8.index t a * S256x512.size a ≤ (i a).val ∧ (i a).val < win0_8.index t a * S256x512.size a + S256x512.size a := by
  show i ∈ ((View.whole main_v34).slice (win0_8.rect t)).set ↔ _
  rw [View.set_slice_whole, Rect.mem_set_unit]
  exact Iff.rfl

/-- Sample `b` of the result is written by point `b / 256`. -/
theorem cover (i : S4096x512.Idx) : ∃ t : Fin cfg0.N, (cfg0.win 8).flush t = true ∧ i ∈ ((cfg0.win 8).blk t).view.set := by
  have hi0 : (i 0).val < 4096 := (i 0).isLt
  have hi1 : (i 1).val < 512 := (i 1).isLt
  have hN : cfg0.N = 16 := N_0
  have ht : (i 0).val / 256 < cfg0.N := by omega
  obtain ⟨-, -, -, -, -, -, -, -, -, -, -, -, -, -, -, -, -, e0, e1⟩ := idx_facts ⟨(i 0).val / 256, ht⟩
  refine ⟨⟨(i 0).val / 256, ht⟩, flush0_8 _, ?_⟩
  rw [mem_blk8]
  intro a
  match a with
  | ⟨0, _⟩ =>
    show win0_8.index ⟨(i 0).val / 256, ht⟩ (0 : Fin 2) * 256 ≤ (i 0).val ∧ (i 0).val < win0_8.index ⟨(i 0).val / 256, ht⟩ (0 : Fin 2) * 256 + 256
    have e0' : win0_8.index ⟨(i 0).val / 256, ht⟩ (0 : Fin 2) = (i 0).val / 256 := e0
    omega
  | ⟨1, _⟩ =>
    show win0_8.index ⟨(i 0).val / 256, ht⟩ (1 : Fin 2) * 512 ≤ (i 1).val ∧ (i 1).val < win0_8.index ⟨(i 0).val / 256, ht⟩ (1 : Fin 2) * 512 + 512
    omega

/-- THE RESULT ARRAY after the run is the first arrangement of the argument arrays. -/
theorem final (c : Dev nD) : (dats m 0 c).arrAt 8 cfg0.N = Gm m c :=
  (dats m 0 c).arrAt_eq_of_cover 8 (Gm m c) (fun t _ => flushed_eq m c t) cover

/-- The kernel program's run, read: every weakly fair execution ends with the result at the first arrangement of
    the arguments, the arguments unchanged. -/
theorem run : θ_run defs (onTc (τ := τ) (main (F := Ideal))) ⟨m, fun _ => 0, ρ⟩ fun r => ∀ c : Dev nD,
      r.2.mem ((c : Thread nD τ).loc main_v34) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Gcn.Final
end
-- ==== Proof.lean ====
/-
  One graph-convolution layer, batched over 4096 samples of 32 nodes: for each sample, with `Â = A + I` the
  adjacency words plus self loops, `deg` its row sums and `s = deg^(-1/2)`,
      out = D^(-1/2) Â D^(-1/2) (X W) + b,   flattened per sample to 512 = 32 nodes × 16 features.

  The kernel program computes it as  ((Â · diag s) (X W)) scaled row by row by s, the row sums, the two
  scalings and the flattenings all carried by small 0/1 matrix products so that every stream stays in a wide
  layout; the reference computes `(Â ∘ s sᵀ) (X W)` with the normalised matrix formed first. On the extended
  reals the two agree exactly when moving a row's factor `s i` across the sum over the neighbours is allowed, that
  is, when the quantities are real numbers: finite features, weights and bias, and positive degrees (so that
  `s` is a positive real and not the `+∞` or junk value an inverse square root takes at `0` or below). That is
  the stated precondition, and nothing else is assumed of the adjacency words.

  The proof: the kernel's run ends with the result at the first arrangement of the arguments (Proof/Final.lean,
  over the generated frame run and the blockwise value leg, the host-built selector matrices read at an index
  in Proof/HostWin*.lean and the body's five matrix products in Proof/BodyValue.lean); the reference's run ends
  with the second (Proof/RefValue.lean over the generated run read one operation at a time); the precondition,
  decoded (Proof/PreDecode.lean), gives the finiteness and the positive degrees under which the two arrangements
  are one array (Proof/Algebra.lean, Proof/Bridge.lean). The three frames are the generated ones; the idealized
  kernel is the printed kernel read at the ideal instance with no rewrite, so `preserves` has nothing to state.
-/
import proofs.«113682_g72318659330489_cont_9to1c4b_23_26_alg».proof.Defs
import proofs.«113682_g72318659330489_cont_9to1c4b_23_26_alg».proof.Proof.Gen.Kernel
import proofs.«113682_g72318659330489_cont_9to1c4b_23_26_alg».proof.Proof.Gen.Kernel.Skeleton
import proofs.«113682_g72318659330489_cont_9to1c4b_23_26_alg».proof.Proof.Gen.Kernel.Launch
import proofs.«113682_g72318659330489_cont_9to1c4b_23_26_alg».proof.Proof.Gen.Kernel.Points
import proofs.«113682_g72318659330489_cont_9to1c4b_23_26_alg».proof.Proof.Gen.Kernel.Frame
import proofs.«113682_g72318659330489_cont_9to1c4b_23_26_alg».proof.Proof.Gen.KernelIdeal
import proofs.«113682_g72318659330489_cont_9to1c4b_23_26_alg».proof.Proof.Gen.KernelIdeal.Skeleton
import proofs.«113682_g72318659330489_cont_9to1c4b_23_26_alg».proof.Proof.Gen.KernelIdeal.Launch
import proofs.«113682_g72318659330489_cont_9to1c4b_23_26_alg».proof.Proof.Gen.KernelIdeal.Points
import proofs.«113682_g72318659330489_cont_9to1c4b_23_26_alg».proof.Proof.Gen.KernelIdeal.Frame
import proofs.«113682_g72318659330489_cont_9to1c4b_23_26_alg».proof.Proof.Gen.ReferenceIdeal
import proofs.«113682_g72318659330489_cont_9to1c4b_23_26_alg».proof.Proof.Gen.Pre_finite_inputs
import proofs.«113682_g72318659330489_cont_9to1c4b_23_26_alg».proof.Proof.Gen.KernelIdeal.Value
import proofs.«113682_g72318659330489_cont_9to1c4b_23_26_alg».proof.Proof.Gen.ReferenceIdeal.Run
import proofs.«113682_g72318659330489_cont_9to1c4b_23_26_alg».proof.Proof.Gen.ReferenceIdeal.Read
import proofs.«113682_g72318659330489_cont_9to1c4b_23_26_alg».proof.Proof.Bridge
import proofs.«113682_g72318659330489_cont_9to1c4b_23_26_alg».proof.Proof.Final
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a host program: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments and satisfy the precondition, the kernel's result array is the first
    arrangement of the arguments and the reference's the second; under the precondition they are one array. -/
theorem algebraic : Cert.algebraic_KernelIdeal_ReferenceIdeal := by
  intro m ρ m' ρ' hpre hagree
  refine ⟨fun c => Cert.Gcn.Final.Gm m c, Cert.Gcn.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  rw [Cert.ReferenceIdeal.Read.val_main_v23_eq, Cert.Gcn.Ref.ref_eq_GR]
  exact (Cert.Gcn.GK_eq_GR _ _ _ _ (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
